-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4x4x1024 : Shape := ⟨3, ![4, 4, 1024]⟩
abbrev S4x1024 : Shape := ⟨2, ![4, 1024]⟩
abbrev S4 : Shape := ⟨1, ![4]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x4x1024 : S_.BroadcastsInDim S4x4x1024 (![] : Fin 0 → Fin S4x4x1024.rank)
  reducesTo_S4x4x1024_S_d0_1_2 : S4x4x1024.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S4 : S_.BroadcastsInDim S4 (![] : Fin 0 → Fin S4.rank)
  reducesTo_S4_S_d0 : S4.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x1024 .f32) (main_arg8 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  main_v43

def fn_part1 {F : FTy → Type} [FloatOps F] (main_arg4 : FVec F S4 .f32) (main_arg5 : FVec F S1024x1024 .f32) (main_arg6 : FVec F S1024x1024 .f32) (main_arg7 : FVec F S1024x1024 .f32) (main_arg8 : FVec F S1024x1024 .f32) (main_v13 : IVec S_ 1) (main_v16 : IVec S4x1024 1) : IVec S_ 1 :=
  let main_c_5 : IVec S_ 1 := constantI S_ 1 1#1
  let main_v17 : IVec S_ 1 := (fun x v => Host.reduce IntOp.andi x v reducesTo_S4x1024_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_v33

def fn {F : FTy → Type} [FloatOps F] (main_arg0 : FVec F S4x4096x1024 .f32) (main_arg1 : FVec F S4x4x1024 .f32) (main_arg2 : FVec F S4x1024 .f32) (main_arg3 : FVec F S4x1024 .f32) (main_arg4 : FVec F S4 .f32) (main_arg5 : FVec F S1024x1024 .f32) (main_arg6 : FVec F S1024x1024 .f32) (main_arg7 : FVec F S1024x1024 .f32) (main_arg8 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4x1024 .f32 := Host.absf main_arg1
  let main_cst_0 : FVec F S_ .f32 := constant S_ .f32 0x7F800000#32
  let main_v5 : FVec F S4x4x1024 .f32 := broadcastInDim S4x4x1024 ![] bcast_S_S4x4x1024 main_cst_0
  let main_v6 : IVec S4x4x1024 1 := cmpf .olt main_v4 main_v5
  let main_c_1 : IVec S_ 1 := constantI S_ 1 1#1
  let main_v7 : IVec S_ 1 := (fun x v => Host.reduce IntOp.andi x v reducesTo_S4x4x1024_S_d0_1_2 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S4x1024 .f32 := Host.absf main_arg3
  let main_cst_4 : FVec F S_ .f32 := constant S_ .f32 0x7F800000#32
  let main_v15 : FVec F S4x1024 .f32 := broadcastInDim S4x1024 ![] bcast_S_S4x1024 main_cst_4
  let main_v16 : IVec S4x1024 1 := cmpf .olt main_v14 main_v15
  fn_part1 (F := F) main_arg4 main_arg5 main_arg6 main_arg7 main_arg8 main_v13 main_v16
-- ==== Kernel.lean ====
abbrev S4x4096x1024 : Shape := ⟨3, ![4, 4096, 1024]⟩
abbrev S4x4x1024 : Shape := ⟨3, ![4, 4, 1024]⟩
abbrev S4x1024 : Shape := ⟨2, ![4, 1024]⟩
abbrev S4 : Shape := ⟨1, ![4]⟩
abbrev S1024x1024 : Shape := ⟨2, ![1024, 1024]⟩
abbrev S1x4x1024 : Shape := ⟨3, ![1, 4, 1024]⟩
abbrev S1024x4 : Shape := ⟨2, ![1024, 4]⟩
abbrev S_ : Shape := ⟨0, ![]⟩
abbrev S1024x128 : Shape := ⟨2, ![1024, 128]⟩
abbrev S1024x3200 : Shape := ⟨2, ![1024, 3200]⟩
abbrev S1x512x1024 : Shape := ⟨3, ![1, 512, 1024]⟩
abbrev S512x1024 : Shape := ⟨2, ![512, 1024]⟩
abbrev S512x3200 : Shape := ⟨2, ![512, 3200]⟩
abbrev S512x128 : Shape := ⟨2, ![512, 128]⟩
abbrev S512x4 : Shape := ⟨2, ![512, 4]⟩
abbrev S1x4 : Shape := ⟨2, ![1, 4]⟩
abbrev S512 : Shape := ⟨1, ![512]⟩
abbrev S512x1 : Shape := ⟨2, ![512, 1]⟩
abbrev S4x1x1024 : Shape := ⟨3, ![4, 1, 1024]⟩

abbrev nBuf : Space → Nat
  | .hbm => 40
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S4x4x1024, .f32⟩
  | .hbm, ⟨2, _⟩ => ⟨S4x1024, .f32⟩
  | .hbm, ⟨3, _⟩ => ⟨S4x1024, .f32⟩
  | .hbm, ⟨4, _⟩ => ⟨S4, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S1x4x1024, .f32⟩
  | .hbm, ⟨13, _⟩ => ⟨S4x4x1024, .f32⟩
  | .hbm, ⟨14, _⟩ => ⟨S4x4x1024, .f32⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x4, .f32⟩
  | .hbm, ⟨22, _⟩ => ⟨S1024x4, .bf16⟩
  | .hbm, ⟨23, _⟩ => ⟨S_, .i32⟩
  | .hbm, ⟨24, _⟩ => ⟨S_, .bf16⟩
  | .hbm, ⟨25, _⟩ => ⟨S1024x128, .bf16⟩
  | .hbm, ⟨26, _⟩ => ⟨S1024x3200, .bf16⟩
  | .hbm, ⟨27, _⟩ => ⟨S1024x1024, .f32⟩
  | .hbm, ⟨28, _⟩ => ⟨S1024x1024, .bf16⟩
  | .hbm, ⟨29, _⟩ => ⟨S4x4096x1024, .f32⟩
  | .hbm, ⟨30, _⟩ => ⟨S4x1x1024, .f32⟩
  | .hbm, ⟨31, _⟩ => ⟨S4x1024, .f32⟩
  | .hbm, ⟨32, _⟩ => ⟨S1024x1024, .f32⟩
  | .hbm, ⟨33, _⟩ => ⟨S4x1024, .f32⟩
  | .hbm, ⟨34, _⟩ => ⟨S1024x1024, .f32⟩
  | .hbm, ⟨35, _⟩ => ⟨S4x1024, .f32⟩
  | .hbm, ⟨36, _⟩ => ⟨S4x1024, .f32⟩
  | .hbm, ⟨37, _⟩ => ⟨S4x1x1024, .f32⟩
  | .hbm, ⟨38, _⟩ => ⟨S4x4x1024, .f32⟩
  | .hbm, ⟨39, _⟩ => ⟨S4x4x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x3200, .bf16⟩
  | .local _ .vmem, ⟨3, _⟩ => ⟨S4, .f32⟩
  | .local _ .vmem, ⟨4, _⟩ => ⟨S1x4x1024, .f32⟩
  | .local _ .vmem, ⟨5, _⟩ => ⟨S1x4x1024, .f32⟩
  | .local _ .vmem, ⟨6, _⟩ => ⟨S1024x1024, .bf16⟩
  | .local _ .vmem, ⟨7, _⟩ => ⟨S1x512x1024, .f32⟩
  | .local _ .vmem, ⟨8, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S4x1024_S1x4x1024_1_2 : S4x1024.BroadcastsInDim S1x4x1024 (![1, 2] : Fin 2 → Fin S1x4x1024.rank)
  bcast_S1x4x1024_S4x4x1024_0_1_2 : S1x4x1024.BroadcastsInDim S4x4x1024 (![0, 1, 2] : Fin 3 → Fin S4x4x1024.rank)
  transposes_S1024x1024_S1024x1024_1_0 : S1024x1024.Transposes [1, 0] S1024x1024
  bitsLt_bf16_f32 : FTy.bits .bf16 < FTy.bits .f32
  transposes_S4x1024_S1024x4_1_0 : S4x1024.Transposes [1, 0] S1024x4
  pads_S1024x4_S1024x128_000_01240 : S1024x4.Pads (![0, 0] : Fin 2 → Nat) ![0, 124] ![0, 0] S1024x128
  h_S_ : 0 < S_.numel
  concatenates_S1024x1024_S1024x1024_S1024x1024_S1024x128_S1024x3200_d1 : Shape.Concatenates [S1024x1024, S1024x1024, S1024x1024, S1024x128] S1024x3200 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x3200_S1024x3200_0_0 : ∀ a, (![0, 0] : Fin 2 → Nat) a + S1024x3200.size a ≤ S1024x3200.size a
  h_S1024x3200 : 0 < S1024x3200.numel
  shapeCasts_S1024x3200_S1024x3200 : S1024x3200.ShapeCasts S1024x3200
  slices_S512x3200_o0_0_S512x1024 : S512x3200.Slices ![0, 0] S512x1024
  slices_S512x3200_o0_1024_S512x1024 : S512x3200.Slices ![0, 1024] S512x1024
  slices_S512x3200_o0_2048_S512x1024 : S512x3200.Slices ![0, 2048] S512x1024
  slices_S512x3200_o0_3072_S512x128 : S512x3200.Slices ![0, 3072] S512x128
  slices_S512x128_o0_0_S512x4 : S512x128.Slices ![0, 0] S512x4
  inb_S4_S4_0 : ∀ a, (![0] : Fin 1 → Nat) a + S4.size a ≤ S4.size a
  h_S4 : 0 < S4.numel
  shapeCasts_S4_S1x4 : S4.ShapeCasts S1x4
  broadcasts_S1x4_S512x4 : S1x4.Broadcasts S512x4
  reduces_S512x4_S512 : S512x4.Reduces [1] S512
  shapeCasts_S512_S512x1 : S512.ShapeCasts S512x1
  broadcasts_S512x1_S512x4 : S512x1.Broadcasts S512x4
  inb_S1x4x1024_S1x4x1024_0_0_0 : ∀ a, (![0, 0, 0] : Fin 3 → Nat) a + S1x4x1024.size a ≤ S1x4x1024.size a
  h_S1x4x1024 : 0 < S1x4x1024.numel
  shapeCasts_S1x4x1024_S4x1024 : S1x4x1024.ShapeCasts S4x1024
  broadcasts_S512x1_S512x1024 : S512x1.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  slices_S4x4096x1024_S4x1x1024_0_4095_0 : S4x4096x1024.Slices ![0, 4095, 0] S4x1x1024
  shapeCasts_S4x1x1024_S4x1024 : S4x1x1024.ShapeCasts S4x1024
  bcast_S4x1024_S4x1x1024_0_2 : S4x1024.BroadcastsInDim S4x1x1024 (![0, 2] : Fin 2 → Fin S4x1x1024.rank)
  bcast_S4x1x1024_S4x4x1024_0_1_2 : S4x1x1024.BroadcastsInDim S4x4x1024 (![0, 1, 2] : Fin 3 → Fin S4x4x1024.rank)
  dot_S512x1024_S1024x3200_S512x3200_1_0_0_1_n_n_wf : DotDims.WF S512x1024 S1024x3200 S512x3200 [1] [0] [0] [1] [] []
  dot_S512x4_S4x1024_S512x1024_1_0_0_1_n_n_wf : DotDims.WF S512x4 S4x1024 S512x1024 [1] [0] [0] [1] [] []
  dot_S512x1024_S1024x1024_S512x1024_1_0_0_1_n_n_wf : DotDims.WF S512x1024 S1024x1024 S512x1024 [1] [0] [0] [1] [] []
  dot_S4x1024_S1024x1024_S4x1024_1_0_0_1_n_n_wf : DotDims.WF S4x1024 S1024x1024 S4x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3200.size a ≤ S1024x3200.size a
  hwx0_1 : ∀ i : grid0.Coords, EltTy.bits .bf16 = 32 ∨ (Rect.block (s := S1024x3200) S1024x3200.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x1024.size a ≤ S4x4x1024.size a
  hwx0_3 : ∀ i : grid0.Coords, EltTy.bits .f32 = 32 ∨ (Rect.block (s := S4x4x1024) S1x4x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x4096x1024.size a
  hwx0_5 : ∀ i : grid0.Coords, EltTy.bits .f32 = 32 ∨ (Rect.block (s := S4x4096x1024) S1x512x1024.size (cc0_transform_5 i) (hinb0_5 i)).WholeWords (EltTy.packing .f32)

variable [Facts₀]

def dot_S512x1024_S1024x3200_S512x3200_1_0_0_1_n_n : DotDims S512x1024 S1024x3200 S512x3200 where
  lhsContracting := [1]
  rhsContracting := [0]
  lhsNonContracting := [0]
  rhsNonContracting := [1]
  lhsBatch := []
  rhsBatch := []
  wf := dot_S512x1024_S1024x3200_S512x3200_1_0_0_1_n_n_wf
def dot_S512x4_S4x1024_S512x1024_1_0_0_1_n_n : DotDims S512x4 S4x1024 S512x1024 where
  lhsContracting := [1]
  rhsContracting := [0]
  lhsNonContracting := [0]
  rhsNonContracting := [1]
  lhsBatch := []
  rhsBatch := []
  wf := dot_S512x4_S4x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S4x1024_S1024x1024_S4x1024_1_0_0_1_n_n : DotDims S4x1024 S1024x1024 S4x1024 where
  lhsContracting := [1]
  rhsContracting := [0]
  lhsNonContracting := [0]
  rhsNonContracting := [1]
  lhsBatch := []
  rhsBatch := []
  wf := dot_S4x1024_S1024x1024_S4x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x3200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x4x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4x4x1024 : Shape := ⟨3, ![4, 4, 1024]⟩
abbrev S4x1024 : Shape := ⟨2, ![4, 1024]⟩
abbrev S4 : Shape := ⟨1, ![4]⟩
abbrev S1024x1024 : Shape := ⟨2, ![1024, 1024]⟩
abbrev S_ : Shape := ⟨0, ![]⟩
abbrev S4x4096x4 : Shape := ⟨3, ![4, 4096, 4]⟩
abbrev S1x1x4 : Shape := ⟨3, ![1, 1, 4]⟩
abbrev S4x4096 : Shape := ⟨2, ![4, 4096]⟩
abbrev S4x4096x1 : Shape := ⟨3, ![4, 4096, 1]⟩
abbrev S1x4x1024 : Shape := ⟨3, ![1, 4, 1024]⟩
abbrev S4x1x1024 : Shape := ⟨3, ![4, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4x1024, .f32⟩
  | .hbm, ⟨2, _⟩ => ⟨S4x1024, .f32⟩
  | .hbm, ⟨3, _⟩ => ⟨S4x1024, .f32⟩
  | .hbm, ⟨4, _⟩ => ⟨S4, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S_, .f32⟩
  | .hbm, ⟨15, _⟩ => ⟨S4x4096x1024, .f32⟩
  | .hbm, ⟨16, _⟩ => ⟨S4x4096x1024, .f32⟩
  | .hbm, ⟨17, _⟩ => ⟨S_, .f32⟩
  | .hbm, ⟨18, _⟩ => ⟨S4x4096x1024, .f32⟩
  | .hbm, ⟨19, _⟩ => ⟨S4x4096x1024, .f32⟩
  | .hbm, ⟨20, _⟩ => ⟨S4x4096x4, .f32⟩
  | .hbm, ⟨21, _⟩ => ⟨S1x1x4, .f32⟩
  | .hbm, ⟨22, _⟩ => ⟨S4x4096x4, .f32⟩
  | .hbm, ⟨23, _⟩ => ⟨S4x4096x4, .f32⟩
  | .hbm, ⟨24, _⟩ => ⟨S_, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .f32⟩
  | .hbm, ⟨29, _⟩ => ⟨S4x4096x1, .f32⟩
  | .hbm, ⟨30, _⟩ => ⟨S4x4096x4, .f32⟩
  | .hbm, ⟨31, _⟩ => ⟨S4x4096x4, .f32⟩
  | .hbm, ⟨32, _⟩ => ⟨S4x4096x4, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S4x4096x4, .f32⟩
  | .hbm, ⟨37, _⟩ => ⟨S4x4096x4, .f32⟩
  | .hbm, ⟨38, _⟩ => ⟨S4x1024, .f32⟩
  | .hbm, ⟨39, _⟩ => ⟨S4x1024, .f32⟩
  | .hbm, ⟨40, _⟩ => ⟨S4x1024, .f32⟩
  | .hbm, ⟨41, _⟩ => ⟨S1x4x1024, .f32⟩
  | .hbm, ⟨42, _⟩ => ⟨S4x4x1024, .f32⟩
  | .hbm, ⟨43, _⟩ => ⟨S4x4x1024, .f32⟩
  | .hbm, ⟨44, _⟩ => ⟨S4x4096x1024, .f32⟩
  | .hbm, ⟨45, _⟩ => ⟨S4x4096x1024, .f32⟩
  | .hbm, ⟨46, _⟩ => ⟨S_, .f32⟩
  | .hbm, ⟨47, _⟩ => ⟨S4x4096, .f32⟩
  | .hbm, ⟨48, _⟩ => ⟨S4x4096x1, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S4x1x1024, .f32⟩
  | .hbm, ⟨55, _⟩ => ⟨S4x1024, .f32⟩
  | .hbm, ⟨56, _⟩ => ⟨S4x1x1024, .f32⟩
  | .hbm, ⟨57, _⟩ => ⟨S4x4x1024, .f32⟩
  | .hbm, ⟨58, _⟩ => ⟨S4x4x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  bcast_S_S4x4096x1024 : S_.BroadcastsInDim S4x4096x1024 (![] : Fin 0 → Fin S4x4096x1024.rank)
  bcast_S4_S1x1x4_2 : S4.BroadcastsInDim S1x1x4 (![2] : Fin 1 → Fin S1x1x4.rank)
  bcast_S1x1x4_S4x4096x4_0_1_2 : S1x1x4.BroadcastsInDim S4x4096x4 (![0, 1, 2] : Fin 3 → Fin S4x4096x4.rank)
  reducesTo_S4x4096x4_S4x4096_d2 : S4x4096x4.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4_0_1_2 : S4x4096x1.BroadcastsInDim S4x4096x4 (![0, 1, 2] : Fin 3 → Fin S4x4096x4.rank)
  bcast_S4x1024_S1x4x1024_1_2 : S4x1024.BroadcastsInDim S1x4x1024 (![1, 2] : Fin 2 → Fin S1x4x1024.rank)
  bcast_S1x4x1024_S4x4x1024_0_1_2 : S1x4x1024.BroadcastsInDim S4x4x1024 (![0, 1, 2] : Fin 3 → Fin S4x4x1024.rank)
  bcast_S4x4096x1_S4x4096x1024_0_1_2 : S4x4096x1.BroadcastsInDim S4x4096x1024 (![0, 1, 2] : Fin 3 → Fin S4x4096x1024.rank)
  slices_S4x4096x1024_S4x1x1024_0_4095_0 : S4x4096x1024.Slices ![0, 4095, 0] S4x1x1024
  shapeCasts_S4x1x1024_S4x1024 : S4x1x1024.ShapeCasts S4x1024
  bcast_S4x1024_S4x1x1024_0_2 : S4x1024.BroadcastsInDim S4x1x1024 (![0, 2] : Fin 2 → Fin S4x1x1024.rank)
  bcast_S4x1x1024_S4x4x1024_0_1_2 : S4x1x1024.BroadcastsInDim S4x4x1024 (![0, 1, 2] : Fin 3 → Fin S4x4x1024.rank)
  dot_S4x4096x1024_S1024x1024_S4x4096x1024_2_1_01_0_n_n_wf : DotDims.WF S4x4096x1024 S1024x1024 S4x4096x1024 [2] [1] [0, 1] [0] [] []
  dot_S4x4096x1024_S4x1024_S4x4096x4_2_1_01_0_n_n_wf : DotDims.WF S4x4096x1024 S4x1024 S4x4096x4 [2] [1] [0, 1] [0] [] []
  dot_S4x4096x4_S4x4x1024_S4x4096x1024_2_1_1_2_0_0_wf : DotDims.WF S4x4096x4 S4x4x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x1024_S4x4096x4_2_1_01_0_n_n : DotDims S4x4096x1024 S4x1024 S4x4096x4 where
  lhsContracting := [2]
  rhsContracting := [1]
  lhsNonContracting := [0, 1]
  rhsNonContracting := [0]
  lhsBatch := []
  rhsBatch := []
  wf := dot_S4x4096x1024_S4x1024_S4x4096x4_2_1_01_0_n_n_wf
def dot_S4x4096x4_S4x4x1024_S4x4096x1024_2_1_1_2_0_0 : DotDims S4x4096x4 S4x4x1024 S4x4096x1024 where
  lhsContracting := [2]
  rhsContracting := [1]
  lhsNonContracting := [1]
  rhsNonContracting := [2]
  lhsBatch := [0]
  rhsBatch := [0]
  wf := dot_S4x4096x4_S4x4x1024_S4x4096x1024_2_1_1_2_0_0_wf

class Facts : Prop extends Facts₀ where

variable [Facts]
-- ==== Proof.RunBits.lean ====
/-
  The printed program's run, as a frame: every weakly fair execution of its @main terminates, faults nowhere, and ends
  with each array of the one grid region at what the region's blocks wrote and every other buffer at what the host lines
  around the region leave.

  @main is three stretches of host lines (the decayed state; the four projection matrices transposed, narrowed and laid
  side by side into one 1024 x 3200 matrix, the selector columns zero-padded to 128; the output matrix transposed), then
  the region over a 4 x 8 grid, then ten more host lines (the new state, from the last row of each batch).  At a grid
  point (b, s) the region stages the 512 rows [512 s, 512 s + 512) of batch b of the input, the whole fused matrix, the
  bias, batch b of the decayed state and the whole output matrix; the body loads the five blocks whole, computes, and
  stores one whole 512 x 1024 block, which is written back to rows [512 s, 512 s + 512) of batch b of the result.  The
  body also loads its output block before storing it, and never uses what it loaded.

  Stated for any float interpretation F.
-/
import proofs.«118696_j37864431681706_2_alg».proof.Proof.Gen.Kernel.Launch
import proofs.«118696_j37864431681706_2_alg».proof.Proof.Gen.Kernel.Skeleton
import proofs.«118696_j37864431681706_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the three stretches of host lines before it. -/
abbrev V0 (c : Dev nD) : Valuation τ sig (Elt F) :=
  StableHlo.after (List.flatten [hostOps0, hostOps0_1, hostOps0_2]) (fun b => m (c, b))
/-- The same, read at a buffer of the core. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three stretches, the region, the last stretch: it reduces to the region continued by the last stretch, at
    the contents the first three leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And each writes only its own result, which is none of the region's six arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, StableHlo.TRef.unary, StableHlo.TRef.binary, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, StableHlo.TRef.unary, StableHlo.TRef.binary, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, StableHlo.TRef.unary, StableHlo.TRef.binary, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, StableHlo.TRef.unary, StableHlo.TRef.binary, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, StableHlo.TRef.unary, StableHlo.TRef.binary, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, StableHlo.TRef.unary, StableHlo.TRef.binary, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, StableHlo.TRef.unary, StableHlo.TRef.binary, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, StableHlo.TRef.unary, StableHlo.TRef.binary, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, StableHlo.TRef.unary, StableHlo.TRef.binary, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host line after the region writes argument 1, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes argument 3, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes argument 5, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line after the region writes argument 6, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line after the region writes argument 7, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line after the region writes argument 8, and no window stages it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved since the fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not
    fetched its block index has not moved since the fetch. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not
    fetched its block index has not moved since the fetch. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is not
    fetched its block index has not moved since the fetch. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is not
    fetched its block index has not moved since the fetch. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: the input and the bias are arrays of the region that it only reads (they end at their
    entry contents), the other seven arguments bypass the region and no line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    ((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).1 2).trans (((dats 0 c).arrAt_in 2 rfl _).trans ((hA c 2).trans (V_main_arg4 m c))),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

/-! ## The body's accesses: each block whole -/

abbrev rX : Rect S1x512x1024 := Rect.unit (s := S1x512x1024) ![0, 0, 0] S1x512x1024.size Facts₀.inb_S1x512x1024_S1x512x1024_0_0_0
abbrev rW : Rect S1024x3200 := Rect.unit (s := S1024x3200) ![0, 0] S1024x3200.size Facts₀.inb_S1024x3200_S1024x3200_0_0
abbrev rB : Rect S4 := Rect.unit (s := S4) ![0] S4.size Facts₀.inb_S4_S4_0
abbrev rS : Rect S1x4x1024 := Rect.unit (s := S1x4x1024) ![0, 0, 0] S1x4x1024.size Facts₀.inb_S1x4x1024_S1x4x1024_0_0_0
abbrev rO : Rect S1024x1024 := Rect.unit (s := S1024x1024) ![0, 0] S1024x1024.size Facts₀.inb_S1024x1024_S1024x1024_0_0

/-- What the body leaves in the output block: its one store, of the body's arithmetic on the five input blocks. -/
def outBlock (x0 : Vec F S1x512x1024 .f32) (x1 : Vec F S1024x3200 .bf16) (x2 : Vec F S4 .f32) (x3 : Vec F S1x4x1024 .f32)
    (x4 : Vec F S1024x1024 .bf16) : Vec F S1x512x1024 .f32 :=
  View.canon [⟨rX, k0_pay1 (k0_pay2 (View.ld x0 rX) (View.ld x1 rW) (View.ld x2 rB) (View.ld x3 rS)) (View.ld x4 rO)⟩]

/-- The one store is of the whole block, so it covers it. -/
theorem cover_out (p0 : Vec F S1x512x1024 .f32) (y : S1x512x1024.Idx) :
    ∃ pc ∈ ([⟨rX, p0⟩] : List (View.Piece (Elt F) S1x512x1024 .f32)), y ∈ pc.1.set :=
  View.cover_of_tiled [⟨rX, p0⟩] S1x512x1024.size (by rfl) y

/-! ## The body's triple -/

set_option maxHeartbeats 2000000 in
/-- The body, on whole staging buffers holding the five input blocks and an output buffer holding anything, runs to its
    end leaving the inputs as they were and the output at `outBlock` of them. -/
theorem sound_kernel (c : Dev nD) (E : Set ℕ) (i : grid0.Coords)
    (arg2 : Memref sig .tc .vmem S1x512x1024 .f32) (harg2 : arg2.IsWhole) (arg3 : Memref sig .tc .vmem S1024x3200 .bf16) (harg3 : arg3.IsWhole)
    (arg4 : Memref sig .tc .vmem S4 .f32) (harg4 : arg4.IsWhole) (arg5 : Memref sig .tc .vmem S1x4x1024 .f32) (harg5 : arg5.IsWhole)
    (arg6 : Memref sig .tc .vmem S1024x1024 .bf16) (harg6 : arg6.IsWhole) (arg7 : Memref sig .tc .vmem S1x512x1024 .f32) (harg7 : arg7.IsWhole)
    (x0 : Vec F S1x512x1024 .f32) (x1 : Vec F S1024x3200 .bf16) (x2 : Vec F S4 .f32) (x3 : Vec F S1x4x1024 .f32) (x4 : Vec F S1024x1024 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBlock x0 x1 x2 x3 x4)) -∗ K ⟨⟩))
      ⊢ wp frame (wpE (defs₀ (F := F)) Variants.none c none) E (cc0__hta_kernel i arg2 harg2 arg3 harg3 arg4 harg4 arg5 harg5 arg6 harg6 arg7 harg7) K := by
  simp only [cc0__hta_kernel_eq_skeleton]; unfold cc0__hta_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The region's proof data -/

/-- Per core: the arrays as the region finds them; after the body at point t each input's buffer still at its block and the
    output's at `outBlock` of the five input blocks; the region keeps nothing else, owes nothing, holds full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlock (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end every array of the region holds what the region computes
    from the proof data and every other unscoped buffer what the lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to its end and its nine argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Run

end
-- ==== Proof.RunIdeal.lean ====
/-
  The idealized program's run, as a frame: every weakly fair execution of its @main terminates, faults nowhere, and ends
  with each array of the one grid region at what the region's blocks wrote and every other buffer at what the host lines
  around the region leave.

  @main is three stretches of host lines (the decayed state; the four projection matrices transposed, narrowed and laid
  side by side into one 1024 x 3200 matrix, the selector columns zero-padded to 128; the output matrix transposed), then
  the region over a 4 x 8 grid, then ten more host lines (the new state, from the last row of each batch).  At a grid
  point (b, s) the region stages the 512 rows [512 s, 512 s + 512) of batch b of the input, the whole fused matrix, the
  bias, batch b of the decayed state and the whole output matrix; the body loads the five blocks whole, computes, and
  stores one whole 512 x 1024 block, which is written back to rows [512 s, 512 s + 512) of batch b of the result.  The
  body also loads its output block before storing it, and never uses what it loaded.

  Stated for any float interpretation F.
-/
import proofs.«118696_j37864431681706_2_alg».proof.Proof.Gen.KernelIdeal.Launch
import proofs.«118696_j37864431681706_2_alg».proof.Proof.Gen.KernelIdeal.Skeleton
import proofs.«118696_j37864431681706_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the three stretches of host lines before it. -/
abbrev V0 (c : Dev nD) : Valuation τ sig (Elt F) :=
  StableHlo.after (List.flatten [hostOps0, hostOps0_1, hostOps0_2]) (fun b => m (c, b))
/-- The same, read at a buffer of the core. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three stretches, the region, the last stretch: it reduces to the region continued by the last stretch, at
    the contents the first three leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And each writes only its own result, which is none of the region's six arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, StableHlo.TRef.unary, StableHlo.TRef.binary, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, StableHlo.TRef.unary, StableHlo.TRef.binary, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, StableHlo.TRef.unary, StableHlo.TRef.binary, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, StableHlo.TRef.unary, StableHlo.TRef.binary, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, StableHlo.TRef.unary, StableHlo.TRef.binary, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, StableHlo.TRef.unary, StableHlo.TRef.binary, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, StableHlo.TRef.unary, StableHlo.TRef.binary, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, StableHlo.TRef.unary, StableHlo.TRef.binary, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, StableHlo.TRef.unary, StableHlo.TRef.binary, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host line after the region writes argument 1, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes argument 3, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes argument 5, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line after the region writes argument 6, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line after the region writes argument 7, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line after the region writes argument 8, and no window stages it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved since the fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not
    fetched its block index has not moved since the fetch. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not
    fetched its block index has not moved since the fetch. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is not
    fetched its block index has not moved since the fetch. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is not
    fetched its block index has not moved since the fetch. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: the input and the bias are arrays of the region that it only reads (they end at their
    entry contents), the other seven arguments bypass the region and no line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    ((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).1 2).trans (((dats 0 c).arrAt_in 2 rfl _).trans ((hA c 2).trans (V_main_arg4 m c))),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

/-! ## The body's accesses: each block whole -/

abbrev rX : Rect S1x512x1024 := Rect.unit (s := S1x512x1024) ![0, 0, 0] S1x512x1024.size Facts₀.inb_S1x512x1024_S1x512x1024_0_0_0
abbrev rW : Rect S1024x3200 := Rect.unit (s := S1024x3200) ![0, 0] S1024x3200.size Facts₀.inb_S1024x3200_S1024x3200_0_0
abbrev rB : Rect S4 := Rect.unit (s := S4) ![0] S4.size Facts₀.inb_S4_S4_0
abbrev rS : Rect S1x4x1024 := Rect.unit (s := S1x4x1024) ![0, 0, 0] S1x4x1024.size Facts₀.inb_S1x4x1024_S1x4x1024_0_0_0
abbrev rO : Rect S1024x1024 := Rect.unit (s := S1024x1024) ![0, 0] S1024x1024.size Facts₀.inb_S1024x1024_S1024x1024_0_0

/-- What the body leaves in the output block: its one store, of the body's arithmetic on the five input blocks. -/
def outBlock (x0 : Vec F S1x512x1024 .f32) (x1 : Vec F S1024x3200 .bf16) (x2 : Vec F S4 .f32) (x3 : Vec F S1x4x1024 .f32)
    (x4 : Vec F S1024x1024 .bf16) : Vec F S1x512x1024 .f32 :=
  View.canon [⟨rX, k0_pay1 (k0_pay2 (View.ld x0 rX) (View.ld x1 rW) (View.ld x2 rB) (View.ld x3 rS)) (View.ld x4 rO)⟩]

/-- The one store is of the whole block, so it covers it. -/
theorem cover_out (p0 : Vec F S1x512x1024 .f32) (y : S1x512x1024.Idx) :
    ∃ pc ∈ ([⟨rX, p0⟩] : List (View.Piece (Elt F) S1x512x1024 .f32)), y ∈ pc.1.set :=
  View.cover_of_tiled [⟨rX, p0⟩] S1x512x1024.size (by rfl) y

/-! ## The body's triple -/

set_option maxHeartbeats 2000000 in
/-- The body, on whole staging buffers holding the five input blocks and an output buffer holding anything, runs to its
    end leaving the inputs as they were and the output at `outBlock` of them. -/
theorem sound_kernel (c : Dev nD) (E : Set ℕ) (i : grid0.Coords)
    (arg2 : Memref sig .tc .vmem S1x512x1024 .f32) (harg2 : arg2.IsWhole) (arg3 : Memref sig .tc .vmem S1024x3200 .bf16) (harg3 : arg3.IsWhole)
    (arg4 : Memref sig .tc .vmem S4 .f32) (harg4 : arg4.IsWhole) (arg5 : Memref sig .tc .vmem S1x4x1024 .f32) (harg5 : arg5.IsWhole)
    (arg6 : Memref sig .tc .vmem S1024x1024 .bf16) (harg6 : arg6.IsWhole) (arg7 : Memref sig .tc .vmem S1x512x1024 .f32) (harg7 : arg7.IsWhole)
    (x0 : Vec F S1x512x1024 .f32) (x1 : Vec F S1024x3200 .bf16) (x2 : Vec F S4 .f32) (x3 : Vec F S1x4x1024 .f32) (x4 : Vec F S1024x1024 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBlock x0 x1 x2 x3 x4)) -∗ K ⟨⟩))
      ⊢ wp frame (wpE (defs₀ (F := F)) Variants.none c none) E (cc0__hta_kernel i arg2 harg2 arg3 harg3 arg4 harg4 arg5 harg5 arg6 harg6 arg7 harg7) K := by
  simp only [cc0__hta_kernel_eq_skeleton]; unfold cc0__hta_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The region's proof data -/

/-- Per core: the arrays as the region finds them; after the body at point t each input's buffer still at its block and the
    output's at `outBlock` of the five input blocks; the region keeps nothing else, owes nothing, holds full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlock (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end every array of the region holds what the region computes
    from the proof data and every other unscoped buffer what the lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to its end and its nine argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Run

end
-- ==== Proof.LibPowOne.lean ====
/-
  The power with exponent one, on the extended reals.

  The single-precision word 0x3F800000 is the real number 1, and raising any extended real to the power 1 gives it
  back: −∞ to any power is −∞ by convention, +∞ to a positive power is +∞, and a real base x to the real power 1 is x
  whatever the sign of x.  So a program that writes q ** 1.0 computes q, with no condition on q.
-/
import Idealize.ShloMosaic.PureOps.Ideal

noncomputable section

namespace Cert.LibPowOne

open Idealize.ShloMosaic

/-- The word 0x3F800000 has sign 0, biased exponent 127 and mantissa 0: the real number 1. -/
theorem ofBits_one_f32 : Ideal.ofBits .f32 0x3F800000#32 = 1 := by
  simp [Ideal.ofBits, Ideal.ieee, -EReal.coe_mul]; norm_num

/-- Raising to the power 1 changes nothing, on every extended real: −∞ stays −∞, +∞ to a positive power is +∞, and
    on a real base it is the real power x¹ = x (whatever the sign of x). -/
theorem pow_one (q : EReal) : Ideal.pow q 1 = q := by
  rw [← EReal.coe_one]
  induction q using EReal.rec with
  | bot => rfl
  | top =>
    rw [Ideal.pow_top, if_pos (by exact_mod_cast one_pos)]
  | coe x =>
    rw [Ideal.pow_coe_coe]
    show ((x ^ (1 : ℝ) : ℝ) : EReal) = x
    rw [Real.rpow_one]

/-- The same with the exponent spelt as the single-precision word of 1.0. -/
theorem pow_ofBits_one_f32 (q : EReal) : Ideal.pow q (Ideal.ofBits .f32 0x3F800000#32) = q := by
  rw [ofBits_one_f32]
  exact pow_one q

end Cert.LibPowOne

end
-- ==== Proof.Spec.lean ====
/-
  One row of the layer, as mathematics on the extended reals.

  A row x (1024 entries) is projected against the rows of four weight matrices.  Three projections give, per hidden
  coordinate j, a value v_j, a key k_j and a gate logit; a fourth gives four level logits, to which a bias is added and
  which are turned into level weights by a softmax (subtract the running maximum, exponentiate, divide by the sum).  The
  hidden value at j is

      gate(logit_j) * ( sum_d weight_d * state_(d,j)  +  (sum_d weight_d) * (k_j * v_j) ),

  where state_(d,j) is the carried state, already decayed, and the output entry at c is the hidden row against row c of
  the output matrix.  The new state at (d, j) is the decayed state plus k_j * v_j of the last row.

  Nothing here is rearranged: sums are written in the one order both programs use, so no law of arithmetic that could
  fail at an infinity is needed to meet either of them.
-/
import Idealize.ShloMosaic.PureOps.Ideal
import Idealize.ShloMosaic.Lib.ValueIdx
import proofs.«118696_j37864431681706_2_alg».proof.Proof.LibPowOne

noncomputable section

open scoped BigOperators

namespace Cert.Spec

open Idealize.ShloMosaic

/-- The word of minus infinity, from which a maximum is folded. -/
abbrev negInf : EReal := Ideal.ofBits .f32 0xFF800000#32
/-- The word of 1.0. -/
abbrev oneW : EReal := Ideal.ofBits .f32 0x3F800000#32

theorem oneW_eq : oneW = 1 := Cert.LibPowOne.ofBits_one_f32

/-- A row against a row: the sum of the products, left factor the row. -/
def dot (a b : Fin 1024 → EReal) : EReal := ∑ h : Fin 1024, a h * b h

/-- The four level logits of a row: the row against each selector row, plus the bias. -/
def logits (xr : Fin 1024 → EReal) (Wl : Fin 4 → Fin 1024 → EReal) (bl : Fin 4 → EReal) (d : Fin 4) : EReal :=
  dot xr (Wl d) + bl d

/-- What the softmax subtracts: the maximum folded from minus infinity, taken once more against minus infinity. -/
def top (l : Fin 4 → EReal) : EReal := max negInf ((Finset.univ : Finset (Fin 4)).fold max negInf l)

/-- The shifted exponentials. -/
def ex (l : Fin 4 → EReal) (d : Fin 4) : EReal := Ideal.exp (l d - top l)

/-- The level weights: each shifted exponential over their sum. -/
def weight (l : Fin 4 → EReal) (d : Fin 4) : EReal := Ideal.div (ex l d) (∑ e : Fin 4, ex l e)

/-- The gate, spelt out: 1 / (1 + e^(-z)). -/
def gate (z : EReal) : EReal := Ideal.div oneW (oneW + Ideal.exp (-z))

/-- The spelt-out gate is the logistic function. -/
theorem gate_eq (z : EReal) : gate z = Ideal.logistic z := by
  unfold gate Ideal.logistic
  rw [oneW_eq]

/-- The hidden value of a row at coordinate j. -/
def hidden (xr : Fin 1024 → EReal) (Wv Wk Wr : Fin 1024 → Fin 1024 → EReal) (Wl : Fin 4 → Fin 1024 → EReal)
    (bl : Fin 4 → EReal) (ds : Fin 4 → Fin 1024 → EReal) (j : Fin 1024) : EReal :=
  gate (dot xr (Wr j))
    * ((∑ d : Fin 4, weight (logits xr Wl bl) d * ds d j)
        + (∑ d : Fin 4, weight (logits xr Wl bl) d) * (dot xr (Wk j) * dot xr (Wv j)))

/-- The output of a row at coordinate c: the hidden row against row c of the output matrix. -/
def rowOut (xr : Fin 1024 → EReal) (Wv Wk Wr Wo : Fin 1024 → Fin 1024 → EReal) (Wl : Fin 4 → Fin 1024 → EReal)
    (bl : Fin 4 → EReal) (ds : Fin 4 → Fin 1024 → EReal) (c : Fin 1024) : EReal :=
  ∑ j : Fin 1024, hidden xr Wv Wk Wr Wl bl ds j * Wo c j

/-- A state entry decayed: s * e^(-e^t). -/
def decayed (s t : EReal) : EReal := s * Ideal.exp (-(Ideal.exp t))

/-- The new state entry: the decayed entry plus key times value of the row. -/
def rowState (xr : Fin 1024 → EReal) (Wv Wk : Fin 1024 → Fin 1024 → EReal) (s t : EReal) (j : Fin 1024) : EReal :=
  decayed s t + dot xr (Wk j) * dot xr (Wv j)

/-! The fused projection matrix has 3200 columns: the value, key and gate matrices side by side (1024 columns each), then
    the four selector columns (and padding the layer never reads). -/

/-- Column o of the value part. -/
def colV (o : Fin 1024) : Fin 3200 := ⟨o.val, by omega⟩
/-- Column o of the key part. -/
def colK (o : Fin 1024) : Fin 3200 := ⟨1024 + o.val, by omega⟩
/-- Column o of the gate part. -/
def colR (o : Fin 1024) : Fin 3200 := ⟨2048 + o.val, by omega⟩
/-- Column d of the selector part. -/
def colL (d : Fin 4) : Fin 3200 := ⟨3072 + d.val, by omega⟩

end Cert.Spec

end
-- ==== Proof.LibMatmulRows.lean ====
/-
  A matrix product into a zero accumulator, read at an index at the ideal values, for operands of any float formats.

  At the ideal values a float is an extended real whatever its format, so a product whose operands were first rounded to a
  narrower format is still the plain sum over the contraction coordinate: for any dimension numbers that contract the
  left operand's columns with the right operand's rows, [n, K] × [K, F] at (p, f) is the sum over k of left (p, k) times
  right (k, f).
-/
import Idealize.ShloMosaic.PureOps.Ideal
import Idealize.ShloMosaic.PureOps.Ideal.Laws
import Idealize.ShloMosaic.Lib.ValueIdx

noncomputable section

open scoped BigOperators

namespace Cert.LibMatmulRows

open Idealize.ShloMosaic Idealize.ShloMosaic.ValueIdx

/-- At the ideal values a matrix product [n, K] × [K, F] into the zero accumulator reads, at (p, f), the sum over the
    contraction coordinate k of left (p, k) times right (k, f), whatever the operands' float formats — for any dimension
    numbers with one contracted axis of extent K whose operand indices are the rows of the left operand and the columns
    of the right one (the four coordinate facts, which compute on a literal record). -/
theorem matmul_rows_apply {n K F : ℕ} {φ₁ φ₂ : FTy} (D : DotDims ⟨2, ![n, K]⟩ ⟨2, ![K, F]⟩ ⟨2, ![n, F]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (l : FVec Ideal ⟨2, ![n, K]⟩ φ₁) (r : FVec Ideal ⟨2, ![K, F]⟩ φ₂)
    (p : Fin n) (f : Fin F) :
    matmul D prec l r (constant ⟨2, ![n, F]⟩ .f32 0x00000000#32) (ix2 p f) = ∑ k : Fin K, l (ix2 p k) * r (ix2 k f) := by
  refine (Ideal.matmul_constant_zero_apply D prec l r (ix2 p f)).trans ?_
  rw [← Equiv.sum_comp (contrEquiv1 D K hr hs).symm]
  refine Finset.sum_congr rfl fun k _ => ?_
  have hk := contrEquiv1_symm_val D K hr hs k
  have el : D.lhsIdx (ix2 p f) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p f) ((contrEquiv1 D K hr hs).symm k) = ix2 k f := funext fun ax => Fin.ext (by
    match ax with
    | ⟨0, _⟩ => exact (hr0 _ _).trans hk
    | ⟨1, _⟩ => exact hr1 _ _)
  rw [el, er]

end Cert.LibMatmulRows

end
-- ==== Proof.LibRowReduce.lean ====
/-
  Reductions along the rows of a matrix, read at one row.

  For an [n, d] matrix reduced over its second axis into an [n] vector, the entry at row p is the reduction of the
  entries (p, 0), …, (p, d-1): a sum for an add-reduction, the fold of `max` from the start value for a
  maximum-reduction.  Stated for the kernel's vector reductions and for the host's one-operand reduce, at the
  extended reals, for any extents and float format.
-/
import Idealize.ShloMosaic.PureOps.Ideal.Laws
import Idealize.ShloMosaic.Lib.ValueIdx

noncomputable section
namespace Cert.LibRowReduce
open Idealize.ShloMosaic Idealize.ShloMosaic.ValueIdx

variable {φ : FTy}

/-- Row p with the coordinate o put back on the reduced axis is the entry (p, o). -/
theorem lift_row {n d : ℕ} (h : (⟨2, ![n, d]⟩ : Shape).Reduces [1] ⟨1, ![n]⟩) (p : Fin n) (o : Fin d) :
    h.lift (ix1 p) o = ix2 p o :=
  funext fun a => Fin.ext (by
    match a with
    | ⟨0, _⟩ => rfl
    | ⟨1, _⟩ => rfl)

/-- A vector add-reduction along the rows: the row's sum. -/
theorem multiReduction_add_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ o : Fin d, src (ix2 p o) :=
  (Ideal.multiReduction_add_single src acc h hφ hacc (ix1 p)).trans
    (Finset.sum_congr rfl fun o _ => congrArg src (lift_row h p o))

/-- A vector maximum-reduction along the rows: the fold of `max` over the row from the accumulator's value. -/
theorem multiReduction_max_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin d)).fold max (Ideal.ofBits φ acc) (fun o => src (ix2 p o)) :=
  (Ideal.multiReduction_maximumf_single src acc h hφ hacc (ix1 p)).trans
    (congrArg (Finset.fold max (Ideal.ofBits φ acc) · Finset.univ) (funext fun o => congrArg src (lift_row h p o)))

/-- The host's add-reduce along the rows: the start value plus the row's sum. -/
theorem hostReduceAdd_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduceAdd x init h' hu (ix1 p) = init (Shape.Idx.first hu) + ∑ o : Fin d, x (ix2 p o) :=
  (Ideal.hostReduceAdd_single h' h x (init (Shape.Idx.first hu)) (ix1 p)).trans
    (congrArg (init (Shape.Idx.first hu) + ·) (Finset.sum_congr rfl fun o _ => congrArg x (lift_row h p o)))

/-- The host's maximum-reduce along the rows: the fold of `max` over the row from the start value. -/
theorem hostReduce_max_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduce (FloatOps.maximumf (F := Ideal) (φ := φ)) x init h' hu (ix1 p)
      = (Finset.univ : Finset (Fin d)).fold max (init (Shape.Idx.first hu)) (fun o => x (ix2 p o)) :=
  (Host.reduce_eq_fold_single (FloatOps.maximumf (F := Ideal) (φ := φ)) x init h' h hu (ix1 p)).trans
    (congrArg (Finset.fold max (init (Shape.Idx.first hu)) · Finset.univ) (funext fun o => congrArg x (lift_row h p o)))

end Cert.LibRowReduce
end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.KPayload.lean ====
/-
  The kernel body's arithmetic on one block, read at an entry.

  The body projects the 512 rows of a block against a fused matrix of 3200 columns in one product, and takes from the
  result, per row p and hidden coordinate o, the value (column o), the key (column 1024 + o), the gate logit
  (column 2048 + o) and, for the four levels d, the level logits (column 3072 + d).  The level logits plus a bias go
  through a softmax over the four lanes; the level weights multiply the decayed state in a small product and are also
  summed over the lanes; the hidden value is the gate times (that product plus the lane sum times key times value); a
  last product against the output matrix gives the block's output.  Read at (p, c) this is the row function of the
  specification, term for term: no sum is reordered.
-/
import proofs.«118696_j37864431681706_2_alg».proof.Proof.Gen.KernelIdeal.Skeleton
import proofs.«118696_j37864431681706_2_alg».proof.Proof.Spec
import proofs.«118696_j37864431681706_2_alg».proof.Proof.LibMatmulRows
import proofs.«118696_j37864431681706_2_alg».proof.Proof.LibRowReduce
import proofs.«118696_j37864431681706_2_alg».proof.Proof.LibKeepdims
import proofs.«118696_j37864431681706_2_alg».proof.Proof.LibBiasRow

noncomputable section

open scoped BigOperators

namespace Cert.KPayload

open Idealize.ShloMosaic Idealize.ShloMosaic.ValueIdx Cert.KernelIdeal Cert.KernelIdeal.Gen

/-! ## The arguments of the specification, read off the block's arrays -/

/-- Row p of the block. -/
abbrev xrow (x0 : Vec Ideal S1x512x1024 .f32) (p : Fin 512) : Fin 1024 → EReal := fun h => x0 (ix3 (0 : Fin 1) p h)
/-- The value rows of the fused matrix. -/
abbrev wV (wf : Vec Ideal S1024x3200 .bf16) : Fin 1024 → Fin 1024 → EReal := fun o h => wf (ix2 h (Cert.Spec.colV o))
/-- The key rows of the fused matrix. -/
abbrev wK (wf : Vec Ideal S1024x3200 .bf16) : Fin 1024 → Fin 1024 → EReal := fun o h => wf (ix2 h (Cert.Spec.colK o))
/-- The gate rows of the fused matrix. -/
abbrev wR (wf : Vec Ideal S1024x3200 .bf16) : Fin 1024 → Fin 1024 → EReal := fun o h => wf (ix2 h (Cert.Spec.colR o))
/-- The selector rows of the fused matrix. -/
abbrev wL (wf : Vec Ideal S1024x3200 .bf16) : Fin 4 → Fin 1024 → EReal := fun d h => wf (ix2 h (Cert.Spec.colL d))
/-- The level bias. -/
abbrev bL (blv : Vec Ideal S4 .f32) : Fin 4 → EReal := fun d => blv (ix1 d)
/-- The decayed state. -/
abbrev dS (ds0 : Vec Ideal S1x4x1024 .f32) : Fin 4 → Fin 1024 → EReal := fun d j => ds0 (ix3 (0 : Fin 1) d j)

/-! ## Layout: the unit leading axis, and a column spread along the rows -/

/-- The block [1, 512, 1024] viewed as [512, 1024] has (0, p, h) at (p, h). -/
theorem block_row_apply (x0 : Vec Ideal S1x512x1024 .f32) (p : Fin 512) (h : Fin 1024) :
    shapeCast S512x1024 x0 shapeCasts_S1x512x1024_S512x1024 (ix2 p h) = x0 (ix3 (0 : Fin 1) p h) :=
  shapeCast_apply x0 _ (ix2 p h) (ix3 (0 : Fin 1) p h) (by
    rw [Shape.rowMajor_val_two, Shape.rowMajor_val_three]
    show (0 * 512 + p.val) * 1024 + h.val = p.val * 1024 + h.val
    omega)

/-- The state [1, 4, 1024] viewed as [4, 1024] has (0, d, j) at (d, j). -/
theorem state_row_apply (ds0 : Vec Ideal S1x4x1024 .f32) (d : Fin 4) (j : Fin 1024) :
    shapeCast S4x1024 ds0 shapeCasts_S1x4x1024_S4x1024 (ix2 d j) = ds0 (ix3 (0 : Fin 1) d j) :=
  shapeCast_apply ds0 _ (ix2 d j) (ix3 (0 : Fin 1) d j) (by
    rw [Shape.rowMajor_val_two, Shape.rowMajor_val_three]
    show (0 * 4 + d.val) * 1024 + j.val = d.val * 1024 + j.val
    omega)

/-- A vector [512] made a column [512, 1] and spread along b lanes has the vector's entry p at (p, c). -/
theorem col_spread_apply {b : ℕ} (v : FVec Ideal S512 .f32) (hb : S512x1.Broadcasts ⟨2, ![512, b]⟩) (p : Fin 512) (c : Fin b) :
    broadcastTo ⟨2, ![512, b]⟩ (shapeCast S512x1 v shapeCasts_S512_S512x1) hb (ix2 p c) = v (ix1 p) :=
  (Cert.LibKeepdims.broadcastTo_a1_ab_apply _ hb p c).trans (Cert.LibKeepdims.shapeCast_a_a1_apply v _ p 0)

/-! ## The fused projection and its four column ranges -/

/-- The fused projection of the block: its rows against the 3200 columns of the fused matrix. -/
def proj (x0 : Vec Ideal S1x512x1024 .f32) (wf : Vec Ideal S1024x3200 .bf16) : FVec Ideal S512x3200 .f32 :=
  matmul dot_S512x1024_S1024x3200_S512x3200_1_0_0_1_n_n none
    (truncf .bf16 (shapeCast S512x1024 x0 shapeCasts_S1x512x1024_S512x1024 : FVec Ideal S512x1024 .f32) bitsLt_bf16_f32)
    (shapeCast S1024x3200 wf shapeCasts_S1024x3200_S1024x3200 : FVec Ideal S1024x3200 .bf16)
    (constant S512x3200 .f32 0x00000000#32)

/-- The fused projection at (p, o): row p against column o. -/
theorem proj_apply (x0 : Vec Ideal S1x512x1024 .f32) (wf : Vec Ideal S1024x3200 .bf16) (p : Fin 512) (o : Fin 3200) :
    proj x0 wf (ix2 p o) = ∑ h : Fin 1024, x0 (ix3 (0 : Fin 1) p h) * wf (ix2 h o) := by
  unfold proj
  refine (Cert.LibMatmulRows.matmul_rows_apply dot_S512x1024_S1024x3200_S512x3200_1_0_0_1_n_n rfl rfl
    (fun j q => by
      unfold DotDims.lhsIdx
      rw [dif_neg (show ¬(0 : Fin S512x1024.rank) ∈ dot_S512x1024_S1024x3200_S512x3200_1_0_0_1_n_n.lhsBatch by decide),
        dif_pos (show (0 : Fin S512x1024.rank) ∈ dot_S512x1024_S1024x3200_S512x3200_1_0_0_1_n_n.lhsNonContracting by decide)]
      rfl)
    (fun j q => dot_S512x1024_S1024x3200_S512x3200_1_0_0_1_n_n.lhsIdx_val_of_single rfl j q)
    (fun j q => dot_S512x1024_S1024x3200_S512x3200_1_0_0_1_n_n.rhsIdx_val_of_single rfl j q)
    (fun j q => by
      unfold DotDims.rhsIdx
      rw [dif_neg (show ¬(1 : Fin S1024x3200.rank) ∈ dot_S512x1024_S1024x3200_S512x3200_1_0_0_1_n_n.rhsBatch by decide),
        dif_pos (show (1 : Fin S1024x3200.rank) ∈ dot_S512x1024_S1024x3200_S512x3200_1_0_0_1_n_n.rhsNonContracting by decide)]
      rfl)
    none _ _ p o).trans ?_
  refine Finset.sum_congr rfl fun h _ => ?_
  exact congrArg₂ (· * ·)
    ((truncf_apply (ψ := .bf16) (shapeCast S512x1024 x0 shapeCasts_S1x512x1024_S512x1024 : FVec Ideal S512x1024 .f32)
      bitsLt_bf16_f32 (ix2 p h)).trans (block_row_apply x0 p h))
    (congrFun (shapeCast_self wf shapeCasts_S1024x3200_S1024x3200) (ix2 h o))

/-- The value range: the slice at column offset 0 has column o of the projection at (p, o). -/
theorem sliceV_apply (v5 : FVec Ideal S512x3200 .f32) (p : Fin 512) (o : Fin 1024) :
    extractStridedSlice S512x1024 ![0, 0] v5 slices_S512x3200_o0_0_S512x1024 (ix2 p o) = v5 (ix2 p (Cert.Spec.colV o)) :=
  extractStridedSlice_apply _ v5 _ (ix2 p o) (ix2 p (Cert.Spec.colV o)) (fun a => by
    match a with
    | ⟨0, _⟩ => show p.val = 0 + p.val; omega
    | ⟨1, _⟩ => show o.val = 0 + o.val; omega)

/-- The key range: the slice at column offset 1024 has column 1024 + o at (p, o). -/
theorem sliceK_apply (v5 : FVec Ideal S512x3200 .f32) (p : Fin 512) (o : Fin 1024) :
    extractStridedSlice S512x1024 ![0, 1024] v5 slices_S512x3200_o0_1024_S512x1024 (ix2 p o) = v5 (ix2 p (Cert.Spec.colK o)) :=
  extractStridedSlice_apply _ v5 _ (ix2 p o) (ix2 p (Cert.Spec.colK o)) (fun a => by
    match a with
    | ⟨0, _⟩ => show p.val = 0 + p.val; omega
    | ⟨1, _⟩ => show 1024 + o.val = 1024 + o.val; rfl)

/-- The gate range: the slice at column offset 2048 has column 2048 + o at (p, o). -/
theorem sliceR_apply (v5 : FVec Ideal S512x3200 .f32) (p : Fin 512) (o : Fin 1024) :
    extractStridedSlice S512x1024 ![0, 2048] v5 slices_S512x3200_o0_2048_S512x1024 (ix2 p o) = v5 (ix2 p (Cert.Spec.colR o)) :=
  extractStridedSlice_apply _ v5 _ (ix2 p o) (ix2 p (Cert.Spec.colR o)) (fun a => by
    match a with
    | ⟨0, _⟩ => show p.val = 0 + p.val; omega
    | ⟨1, _⟩ => show 2048 + o.val = 2048 + o.val; rfl)

/-- The selector range: the first four lanes of the slice at column offset 3072 have column 3072 + d at (p, d). -/
theorem sliceL_apply (v5 : FVec Ideal S512x3200 .f32) (p : Fin 512) (d : Fin 4) :
    extractStridedSlice S512x4 ![0, 0]
        (extractStridedSlice S512x128 ![0, 3072] v5 slices_S512x3200_o0_3072_S512x128) slices_S512x128_o0_0_S512x4 (ix2 p d)
      = v5 (ix2 p (Cert.Spec.colL d)) :=
  (extractStridedSlice_apply _ _ slices_S512x128_o0_0_S512x4 (ix2 p d) (ix2 p (⟨d.val, by omega⟩ : Fin 128)) (fun a => by
    match a with
    | ⟨0, _⟩ => show p.val = 0 + p.val; omega
    | ⟨1, _⟩ => show d.val = 0 + d.val; omega)).trans
  (extractStridedSlice_apply _ v5 slices_S512x3200_o0_3072_S512x128 (ix2 p (⟨d.val, by omega⟩ : Fin 128)) (ix2 p (Cert.Spec.colL d))
    (fun a => by
      match a with
      | ⟨0, _⟩ => show p.val = 0 + p.val; omega
      | ⟨1, _⟩ => show 3072 + d.val = 3072 + d.val; rfl))

/-! ## The level logits -/

/-- The level logits of the block: the selector range of the projection plus the bias row. -/
def lvl (x0 : Vec Ideal S1x512x1024 .f32) (wf : Vec Ideal S1024x3200 .bf16) (blv : Vec Ideal S4 .f32) : FVec Ideal S512x4 .f32 :=
  addf
    (extractStridedSlice S512x4 ![0, 0]
      (extractStridedSlice S512x128 ![0, 3072] (proj x0 wf) slices_S512x3200_o0_3072_S512x128) slices_S512x128_o0_0_S512x4)
    (broadcastTo S512x4 (shapeCast S1x4 blv shapeCasts_S4_S1x4 : FVec Ideal S1x4 .f32) broadcasts_S1x4_S512x4)

/-- The level logits at (p, d) are the specification's, of row p. -/
theorem lvl_apply (x0 : Vec Ideal S1x512x1024 .f32) (wf : Vec Ideal S1024x3200 .bf16) (blv : Vec Ideal S4 .f32)
    (p : Fin 512) (d : Fin 4) :
    lvl x0 wf blv (ix2 p d) = Cert.Spec.logits (xrow x0 p) (wL wf) (bL blv) d := by
  unfold lvl Cert.Spec.logits Cert.Spec.dot
  refine (addf_apply _ _ _).trans ?_
  exact congrArg₂ (· + ·) ((sliceL_apply _ p d).trans (proj_apply x0 wf p (Cert.Spec.colL d)))
    (Cert.LibBiasRow.vec_spread_apply shapeCasts_S4_S1x4 broadcasts_S1x4_S512x4 blv p d)

/-! ## The softmax over the four lanes -/

/-- What the softmax subtracts, per row: minus infinity against the lane maximum folded from minus infinity. -/
def tops (l : FVec Ideal S512x4 .f32) : FVec Ideal S512 .f32 :=
  maximumf (broadcast S512 (Scalar.ofBits (F := Ideal) .f32 0xFF800000#32))
    (multiReduction (F := Ideal) .maximumf [1] S512 l 0xFF800000#32 reduces_S512x4_S512 (.inl rfl) rfl)

/-- It is the specification's, of the row's four logits. -/
theorem tops_apply (l : FVec Ideal S512x4 .f32) (p : Fin 512) :
    tops l (ix1 p) = Cert.Spec.top (fun d => l (ix2 p d)) := by
  unfold tops Cert.Spec.top
  refine (maximumf_apply _ _ _).trans ?_
  exact congrArg (max (Ideal.ofBits .f32 0xFF800000#32))
    (Cert.LibRowReduce.multiReduction_max_row l 0xFF800000#32 reduces_S512x4_S512 (.inl rfl) rfl p)

/-- The shifted exponentials of the block. -/
def exps (l : FVec Ideal S512x4 .f32) : FVec Ideal S512x4 .f32 :=
  exp (subf l (broadcastTo S512x4 (shapeCast S512x1 (tops l) shapeCasts_S512_S512x1) broadcasts_S512x1_S512x4))

/-- They are the specification's, of the row's four logits. -/
theorem exps_apply (l : FVec Ideal S512x4 .f32) (p : Fin 512) (d : Fin 4) :
    exps l (ix2 p d) = Cert.Spec.ex (fun e => l (ix2 p e)) d := by
  unfold exps Cert.Spec.ex
  show Ideal.exp (l (ix2 p d)
      - broadcastTo S512x4 (shapeCast S512x1 (tops l) shapeCasts_S512_S512x1) broadcasts_S512x1_S512x4 (ix2 p d)) = _
  exact congrArg (fun t => Ideal.exp (l (ix2 p d) - t))
    ((col_spread_apply (tops l) broadcasts_S512x1_S512x4 p d).trans (tops_apply l p))

/-- The level weights of the block: each shifted exponential over the row's sum of them. -/
def wts (l : FVec Ideal S512x4 .f32) : FVec Ideal S512x4 .f32 :=
  divf (exps l)
    (broadcastTo S512x4
      (shapeCast S512x1 (multiReduction (F := Ideal) .add [1] S512 (exps l) 0x00000000#32 reduces_S512x4_S512 (.inl rfl) rfl)
        shapeCasts_S512_S512x1) broadcasts_S512x1_S512x4)

/-- They are the specification's, of the row's four logits. -/
theorem wts_apply (l : FVec Ideal S512x4 .f32) (p : Fin 512) (d : Fin 4) :
    wts l (ix2 p d) = Cert.Spec.weight (fun e => l (ix2 p e)) d := by
  unfold wts Cert.Spec.weight
  refine (divf_apply _ _ _).trans ?_
  exact congrArg₂ Ideal.div (exps_apply l p d)
    ((col_spread_apply _ broadcasts_S512x1_S512x4 p d).trans
      ((Cert.LibRowReduce.multiReduction_add_row (exps l) 0x00000000#32 reduces_S512x4_S512 (.inl rfl) rfl p).trans
        (Finset.sum_congr rfl fun e _ => exps_apply l p e)))

/-! ## The level weights against the decayed state, and their lane sum -/

/-- The small product at (p, j): the row's level weights against column j of the decayed state. -/
theorem mix_apply (w : FVec Ideal S512x4 .f32) (ds0 : Vec Ideal S1x4x1024 .f32) (p : Fin 512) (j : Fin 1024) :
    matmul dot_S512x4_S4x1024_S512x1024_1_0_0_1_n_n none (truncf .bf16 w bitsLt_bf16_f32)
        (truncf .bf16 (shapeCast S4x1024 ds0 shapeCasts_S1x4x1024_S4x1024 : FVec Ideal S4x1024 .f32) bitsLt_bf16_f32)
        (constant S512x1024 .f32 0x00000000#32) (ix2 p j)
      = ∑ d : Fin 4, w (ix2 p d) * ds0 (ix3 (0 : Fin 1) d j) := by
  refine (Cert.LibMatmulRows.matmul_rows_apply dot_S512x4_S4x1024_S512x1024_1_0_0_1_n_n rfl rfl
    (fun i q => by
      unfold DotDims.lhsIdx
      rw [dif_neg (show ¬(0 : Fin S512x4.rank) ∈ dot_S512x4_S4x1024_S512x1024_1_0_0_1_n_n.lhsBatch by decide),
        dif_pos (show (0 : Fin S512x4.rank) ∈ dot_S512x4_S4x1024_S512x1024_1_0_0_1_n_n.lhsNonContracting by decide)]
      rfl)
    (fun i q => dot_S512x4_S4x1024_S512x1024_1_0_0_1_n_n.lhsIdx_val_of_single rfl i q)
    (fun i q => dot_S512x4_S4x1024_S512x1024_1_0_0_1_n_n.rhsIdx_val_of_single rfl i q)
    (fun i q => by
      unfold DotDims.rhsIdx
      rw [dif_neg (show ¬(1 : Fin S4x1024.rank) ∈ dot_S512x4_S4x1024_S512x1024_1_0_0_1_n_n.rhsBatch by decide),
        dif_pos (show (1 : Fin S4x1024.rank) ∈ dot_S512x4_S4x1024_S512x1024_1_0_0_1_n_n.rhsNonContracting by decide)]
      rfl)
    none _ _ p j).trans ?_
  refine Finset.sum_congr rfl fun d _ => ?_
  exact congrArg₂ (· * ·) (truncf_apply (ψ := .bf16) w bitsLt_bf16_f32 (ix2 p d))
    ((truncf_apply (ψ := .bf16) (shapeCast S4x1024 ds0 shapeCasts_S1x4x1024_S4x1024 : FVec Ideal S4x1024 .f32)
      bitsLt_bf16_f32 (ix2 d j)).trans (state_row_apply ds0 d j))

/-- The lane sum of the weights, made a column and spread over the hidden coordinates, at (p, j): the row's sum. -/
theorem wsum_apply (w : FVec Ideal S512x4 .f32) (p : Fin 512) (j : Fin 1024) :
    broadcastTo S512x1024
        (shapeCast S512x1 (multiReduction (F := Ideal) .add [1] S512 w 0x00000000#32 reduces_S512x4_S512 (.inl rfl) rfl)
          shapeCasts_S512_S512x1) broadcasts_S512x1_S512x1024 (ix2 p j)
      = ∑ d : Fin 4, w (ix2 p d) :=
  (col_spread_apply _ broadcasts_S512x1_S512x1024 p j).trans
    (Cert.LibRowReduce.multiReduction_add_row w 0x00000000#32 reduces_S512x4_S512 (.inl rfl) rfl p)

/-! ## The hidden block, and the output -/

/-- The body's arithmetic is the gate of the gate range times (the small product plus the lane sum times key times
    value), over the stages above. -/
theorem pay2_eq (x0 : Vec Ideal S1x512x1024 .f32) (wf : Vec Ideal S1024x3200 .bf16) (blv : Vec Ideal S4 .f32)
    (ds0 : Vec Ideal S1x4x1024 .f32) :
    k0_pay2 (F := Ideal) x0 wf blv ds0
      = truncf .bf16
          (mulf (logistic (extractStridedSlice S512x1024 ![0, 2048] (proj x0 wf) slices_S512x3200_o0_2048_S512x1024))
            (addf
              (matmul dot_S512x4_S4x1024_S512x1024_1_0_0_1_n_n none (truncf .bf16 (wts (lvl x0 wf blv)) bitsLt_bf16_f32)
                (truncf .bf16 (shapeCast S4x1024 ds0 shapeCasts_S1x4x1024_S4x1024 : FVec Ideal S4x1024 .f32) bitsLt_bf16_f32)
                (constant S512x1024 .f32 0x00000000#32))
              (mulf
                (broadcastTo S512x1024
                  (shapeCast S512x1
                    (multiReduction (F := Ideal) .add [1] S512 (wts (lvl x0 wf blv)) 0x00000000#32 reduces_S512x4_S512 (.inl rfl) rfl)
                    shapeCasts_S512_S512x1) broadcasts_S512x1_S512x1024)
                (mulf (extractStridedSlice S512x1024 ![0, 1024] (proj x0 wf) slices_S512x3200_o0_1024_S512x1024)
                  (extractStridedSlice S512x1024 ![0, 0] (proj x0 wf) slices_S512x3200_o0_0_S512x1024)))))
          bitsLt_bf16_f32 := rfl

/-- The hidden block at (p, j) is the specification's hidden value of row p at j. -/
theorem pay2_apply (x0 : Vec Ideal S1x512x1024 .f32) (wf : Vec Ideal S1024x3200 .bf16) (blv : Vec Ideal S4 .f32)
    (ds0 : Vec Ideal S1x4x1024 .f32) (p : Fin 512) (j : Fin 1024) :
    k0_pay2 (F := Ideal) x0 wf blv ds0 (ix2 p j)
      = Cert.Spec.hidden (xrow x0 p) (wV wf) (wK wf) (wR wf) (wL wf) (bL blv) (dS ds0) j := by
  refine (congrFun (pay2_eq x0 wf blv ds0) (ix2 p j)).trans ?_
  unfold Cert.Spec.hidden
  rw [Cert.Spec.gate_eq]
  have hw : ∀ d : Fin 4, wts (lvl x0 wf blv) (ix2 p d) = Cert.Spec.weight (Cert.Spec.logits (xrow x0 p) (wL wf) (bL blv)) d :=
    fun d => (wts_apply (lvl x0 wf blv) p d).trans
      (congrArg (fun l => Cert.Spec.weight l d) (funext fun e => lvl_apply x0 wf blv p e))
  refine congrArg₂ (· * ·)
    (congrArg Ideal.logistic ((sliceR_apply (proj x0 wf) p j).trans (proj_apply x0 wf p (Cert.Spec.colR j))))
    (congrArg₂ (· + ·)
      ((mix_apply (wts (lvl x0 wf blv)) ds0 p j).trans
        (Finset.sum_congr rfl fun d _ => congrArg (· * ds0 (ix3 (0 : Fin 1) d j)) (hw d)))
      (congrArg₂ (· * ·)
        ((wsum_apply (wts (lvl x0 wf blv)) p j).trans (Finset.sum_congr rfl fun d _ => hw d))
        (congrArg₂ (· * ·)
          ((sliceK_apply (proj x0 wf) p j).trans (proj_apply x0 wf p (Cert.Spec.colK j)))
          ((sliceV_apply (proj x0 wf) p j).trans (proj_apply x0 wf p (Cert.Spec.colV j))))))

/-- The last product, stored as a [1, 512, 1024] block, at (0, p, c): the hidden row p against column c of the output
    matrix. -/
theorem pay1_apply (v39 : FVec Ideal S512x1024 .bf16) (wo : Vec Ideal S1024x1024 .bf16) (p : Fin 512) (c : Fin 1024) :
    k0_pay1 (F := Ideal) v39 wo (ix3 (0 : Fin 1) p c) = ∑ j : Fin 1024, v39 (ix2 p j) * wo (ix2 j c) := by
  show shapeCast S1x512x1024
      (matmul dot_S512x1024_S1024x1024_S512x1024_1_0_0_1_n_n none v39
        (shapeCast S1024x1024 wo shapeCasts_S1024x1024_S1024x1024 : FVec Ideal S1024x1024 .bf16)
        (constant S512x1024 .f32 0x00000000#32))
      shapeCasts_S512x1024_S1x512x1024 (ix3 (0 : Fin 1) p c) = _
  refine (shapeCast_apply _ shapeCasts_S512x1024_S1x512x1024 (ix3 (0 : Fin 1) p c) (ix2 p c) (by
    rw [Shape.rowMajor_val_two, Shape.rowMajor_val_three]
    show p.val * 1024 + c.val = (0 * 512 + p.val) * 1024 + c.val
    omega)).trans ?_
  refine (Cert.LibMatmulRows.matmul_rows_apply dot_S512x1024_S1024x1024_S512x1024_1_0_0_1_n_n rfl rfl
    (fun i q => by
      unfold DotDims.lhsIdx
      rw [dif_neg (show ¬(0 : Fin S512x1024.rank) ∈ dot_S512x1024_S1024x1024_S512x1024_1_0_0_1_n_n.lhsBatch by decide),
        dif_pos (show (0 : Fin S512x1024.rank) ∈ dot_S512x1024_S1024x1024_S512x1024_1_0_0_1_n_n.lhsNonContracting by decide)]
      rfl)
    (fun i q => dot_S512x1024_S1024x1024_S512x1024_1_0_0_1_n_n.lhsIdx_val_of_single rfl i q)
    (fun i q => dot_S512x1024_S1024x1024_S512x1024_1_0_0_1_n_n.rhsIdx_val_of_single rfl i q)
    (fun i q => by
      unfold DotDims.rhsIdx
      rw [dif_neg (show ¬(1 : Fin S1024x1024.rank) ∈ dot_S512x1024_S1024x1024_S512x1024_1_0_0_1_n_n.rhsBatch by decide),
        dif_pos (show (1 : Fin S1024x1024.rank) ∈ dot_S512x1024_S1024x1024_S512x1024_1_0_0_1_n_n.rhsNonContracting by decide)]
      rfl)
    none v39 _ p c).trans ?_
  exact Finset.sum_congr rfl fun j _ =>
    congrArg (v39 (ix2 p j) * ·) (congrFun (shapeCast_self wo shapeCasts_S1024x1024_S1024x1024) (ix2 j c))

/-- The body's output at an entry: the block's output at (0, p, c) is the specification's output of row p at c. -/
theorem pay_apply (x0 : Vec Ideal S1x512x1024 .f32) (wf : Vec Ideal S1024x3200 .bf16) (blv : Vec Ideal S4 .f32)
    (ds0 : Vec Ideal S1x4x1024 .f32) (wo : Vec Ideal S1024x1024 .bf16) (p : Fin 512) (c : Fin 1024) :
    k0_pay1 (F := Ideal) (k0_pay2 (F := Ideal) x0 wf blv ds0) wo (ix3 (0 : Fin 1) p c)
      = Cert.Spec.rowOut (fun h => x0 (ix3 (0 : Fin 1) p h))
          (fun o h => wf (ix2 h (Cert.Spec.colV o))) (fun o h => wf (ix2 h (Cert.Spec.colK o))) (fun o h => wf (ix2 h (Cert.Spec.colR o)))
          (fun o h => wo (ix2 h o))
          (fun d h => wf (ix2 h (Cert.Spec.colL d))) (fun d => blv (ix1 d)) (fun d j => ds0 (ix3 (0 : Fin 1) d j)) c := by
  refine (pay1_apply (k0_pay2 (F := Ideal) x0 wf blv ds0) wo p c).trans ?_
  unfold Cert.Spec.rowOut
  exact Finset.sum_congr rfl fun j _ => congrArg (· * wo (ix2 j c)) (pay2_apply x0 wf blv ds0 p j)

end Cert.KPayload

end
-- ==== Proof.Final.lean ====
/-
  From blocks to the array.

  At grid point (b, s) the region writes rows [512 s, 512 s + 512) of batch b of the result, and the block it writes is, row
  by row, the layer's row function of: the same rows of batch b of the input, the whole fused matrix, the bias, batch b of
  the decayed state and the whole transposed output matrix.  The 32 blocks tile the result, so the result array is ONE
  function of those five arrays, entry by entry.
-/
import proofs.«118696_j37864431681706_2_alg».proof.Proof.RunIdeal
import proofs.«118696_j37864431681706_2_alg».proof.Proof.KPayload
import proofs.«118696_j37864431681706_2_alg».proof.Proof.Spec
import Idealize.ShloMosaic.Lib.Pipeline.Value
import Idealize.ShloMosaic.Lib.ValueIdx

set_option maxRecDepth 16384

noncomputable section

namespace Cert.KernelIdeal.Final

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Run

variable (m : (ℓ : Loc nD τ sig) → Buf (Elt Ideal) ℓ) (ρ : Dev nD → PrngReg)

/-- The row function depends on its row and matrices entry by entry. -/
theorem rowOut_congr {xr xr' : Fin 1024 → EReal} {Wv Wv' Wk Wk' Wr Wr' Wo Wo' : Fin 1024 → Fin 1024 → EReal}
    {Wl Wl' : Fin 4 → Fin 1024 → EReal} {bl bl' : Fin 4 → EReal} {ds ds' : Fin 4 → Fin 1024 → EReal} (c : Fin 1024)
    (hx : ∀ h, xr h = xr' h) (hv : ∀ o h, Wv o h = Wv' o h) (hk : ∀ o h, Wk o h = Wk' o h) (hr : ∀ o h, Wr o h = Wr' o h)
    (ho : ∀ o h, Wo o h = Wo' o h) (hl : ∀ d h, Wl d h = Wl' d h) (hb : ∀ d, bl d = bl' d) (hd : ∀ d j, ds d j = ds' d j) :
    Cert.Spec.rowOut xr Wv Wk Wr Wo Wl bl ds c = Cert.Spec.rowOut xr' Wv' Wk' Wr' Wo' Wl' bl' ds' c := by
  obtain rfl : xr = xr' := funext hx
  obtain rfl : Wv = Wv' := funext fun o => funext (hv o)
  obtain rfl : Wk = Wk' := funext fun o => funext (hk o)
  obtain rfl : Wr = Wr' := funext fun o => funext (hr o)
  obtain rfl : Wo = Wo' := funext fun o => funext (ho o)
  obtain rfl : Wl = Wl' := funext fun d => funext (hl d)
  obtain rfl : bl = bl' := funext hb
  obtain rfl : ds = ds' := funext fun d => funext (hd d)
  rfl

/-- The result array as one function of the five arrays the region reads: entry (b, r, c) is the row function of row
    (b, r) of the input, the fused matrix's four column groups, the transposed output matrix, the bias and batch b of the
    decayed state, at c. -/
def E (X : S4x4096x1024.Idx → EReal) (Wf : S1024x3200.Idx → EReal) (Bl : S4.Idx → EReal) (Ds : S4x4x1024.Idx → EReal)
    (WoT : S1024x1024.Idx → EReal) : S4x4096x1024.Idx → EReal := fun i =>
  Cert.Spec.rowOut (fun h => X (ix3 (i 0) (i 1) h))
    (fun o h => Wf (ix2 h (Cert.Spec.colV o))) (fun o h => Wf (ix2 h (Cert.Spec.colK o))) (fun o h => Wf (ix2 h (Cert.Spec.colR o)))
    (fun o h => WoT (ix2 h o)) (fun d h => Wf (ix2 h (Cert.Spec.colL d))) (fun d => Bl (ix1 d)) (fun d j => Ds (ix3 (i 0) d j)) (i 2)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the input's and the state's blocks move with the result's, the three
    whole-array windows stay at block 0, and the result's block indices range over 4 batches and 8 row tiles. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_1.index t (0 : Fin 2) = 0 ∧ win0_1.index t (1 : Fin 2) = 0
    ∧ win0_2.index t (0 : Fin 1) = 0
    ∧ win0_3.index t (0 : Fin 3) = win0_5.index t (0 : Fin 3) ∧ win0_3.index t (1 : Fin 3) = 0 ∧ win0_3.index t (2 : Fin 3) = 0
    ∧ win0_4.index t (0 : Fin 2) = 0 ∧ win0_4.index t (1 : Fin 2) = 0
    ∧ win0_5.index t (0 : Fin 3) ≤ 3 ∧ win0_5.index t (1 : Fin 3) ≤ 7 :=
  (by decide +kernel : ∀ t : Fin grid0.N, _)

/-- Every (batch, row tile) is some grid point's. -/
theorem idx_onto : ∀ (q0 : Fin 4) (q1 : Fin 8), ∃ t : Fin cfg0.N, win0_5.index t = ![q0.val, q1.val, 0] :=
  (by decide +kernel : ∀ (q0 : Fin 4) (q1 : Fin 8), ∃ t : Fin grid0.N, win0_5.index t = ![q0.val, q1.val, 0])

/-- What point t writes back is block t of `E` of the five arrays as the region finds them. -/
theorem flushed_eq (c : Dev nD) (t : Fin cfg0.N) :
    (dats m 0 c).flushed 5 t = ((cfg0.win 5).blk t).view.read (Elt Ideal)
      (E (V m c main_arg0) (V m c main_v15) (V m c main_arg4) (V m c main_v5) (V m c main_v17)) := by
  show (cfg0.win 5).cut (grid0.coords t) ((dats m 0 c).after 5 t) = _
  rw [after5]
  unfold outBlock
  rw [View.canon_unit_zero hz3]
  simp only [View.ld_unit_zero (S := S1x512x1024) hz3, View.ld_unit_zero (S := S1024x3200) hz2, View.ld_unit_zero (S := S4) hz1,
    View.ld_unit_zero (S := S1x4x1024) hz3, View.ld_unit_zero (S := S1024x1024) hz2]
  obtain ⟨e00, e01, e02, e52, e10, e11, e20, e30, e31, e32, e40, e41, b50, b51⟩ := idx_facts t
  funext y
  obtain ⟨u, p, q, rfl⟩ : ∃ (u : Fin 1) (p : Fin 512) (q : Fin 1024), y = ix3 u p q := ⟨y 0, y 1, y 2, eq_ix3 y⟩
  obtain rfl : u = 0 := Subsingleton.elim _ _
  refine (Cert.KPayload.pay_apply (iblk m c 0 t) (iblk m c 1 t) (iblk m c 2 t) (iblk m c 3 t) (iblk m c 4 t) p q).trans ?_
  show _ = E (V m c main_arg0) (V m c main_v15) (V m c main_arg4) (V m c main_v5) (V m c main_v17) (((cfg0.win 5).blk t).view.emb (ix3 (0 : Fin 1) p q))
  unfold E
  have hq : (((cfg0.win 5).blk t).view.emb (ix3 (0 : Fin 1) p q)) 2 = q := Fin.ext (by
    show win0_5.index t (2 : Fin 3) * 1024 + 1 * q.val = q.val
    omega)
  rw [hq]
  refine rowOut_congr q (fun h => ?_) (fun o h => ?_) (fun o h => ?_) (fun o h => ?_) (fun o h => ?_) (fun d h => ?_) (fun d => ?_) (fun d j => ?_)
  · show V m c main_arg0 (((cfg0.win 0).blk t).view.emb (ix3 (0 : Fin 1) p h)) = V m c main_arg0 _
    refine congrArg (V m c main_arg0) (funext fun a => Fin.ext ?_)
    match a with
    | ⟨0, _⟩ => show win0_0.index t (0 : Fin 3) * 1 + 1 * 0 = win0_5.index t (0 : Fin 3) * 1 + 1 * 0; omega
    | ⟨1, _⟩ => show win0_0.index t (1 : Fin 3) * 512 + 1 * p.val = win0_5.index t (1 : Fin 3) * 512 + 1 * p.val; omega
    | ⟨2, _⟩ => show win0_0.index t (2 : Fin 3) * 1024 + 1 * h.val = h.val; omega
  · show V m c main_v15 (((cfg0.win 1).blk t).view.emb (ix2 h (Cert.Spec.colV o))) = V m c main_v15 _
    refine congrArg (V m c main_v15) (funext fun a => Fin.ext ?_)
    match a with
    | ⟨0, _⟩ => show win0_1.index t (0 : Fin 2) * 1024 + 1 * h.val = h.val; omega
    | ⟨1, _⟩ => show win0_1.index t (1 : Fin 2) * 3200 + 1 * (Cert.Spec.colV o).val = (Cert.Spec.colV o).val; omega
  · show V m c main_v15 (((cfg0.win 1).blk t).view.emb (ix2 h (Cert.Spec.colK o))) = V m c main_v15 _
    refine congrArg (V m c main_v15) (funext fun a => Fin.ext ?_)
    match a with
    | ⟨0, _⟩ => show win0_1.index t (0 : Fin 2) * 1024 + 1 * h.val = h.val; omega
    | ⟨1, _⟩ => show win0_1.index t (1 : Fin 2) * 3200 + 1 * (Cert.Spec.colK o).val = (Cert.Spec.colK o).val; omega
  · show V m c main_v15 (((cfg0.win 1).blk t).view.emb (ix2 h (Cert.Spec.colR o))) = V m c main_v15 _
    refine congrArg (V m c main_v15) (funext fun a => Fin.ext ?_)
    match a with
    | ⟨0, _⟩ => show win0_1.index t (0 : Fin 2) * 1024 + 1 * h.val = h.val; omega
    | ⟨1, _⟩ => show win0_1.index t (1 : Fin 2) * 3200 + 1 * (Cert.Spec.colR o).val = (Cert.Spec.colR o).val; omega
  · show V m c main_v17 (((cfg0.win 4).blk t).view.emb (ix2 h o)) = V m c main_v17 _
    refine congrArg (V m c main_v17) (funext fun a => Fin.ext ?_)
    match a with
    | ⟨0, _⟩ => show win0_4.index t (0 : Fin 2) * 1024 + 1 * h.val = h.val; omega
    | ⟨1, _⟩ => show win0_4.index t (1 : Fin 2) * 1024 + 1 * o.val = o.val; omega
  · show V m c main_v15 (((cfg0.win 1).blk t).view.emb (ix2 h (Cert.Spec.colL d))) = V m c main_v15 _
    refine congrArg (V m c main_v15) (funext fun a => Fin.ext ?_)
    match a with
    | ⟨0, _⟩ => show win0_1.index t (0 : Fin 2) * 1024 + 1 * h.val = h.val; omega
    | ⟨1, _⟩ => show win0_1.index t (1 : Fin 2) * 3200 + 1 * (Cert.Spec.colL d).val = (Cert.Spec.colL d).val; omega
  · show V m c main_arg4 (((cfg0.win 2).blk t).view.emb (ix1 d)) = V m c main_arg4 _
    refine congrArg (V m c main_arg4) (funext fun a => Fin.ext ?_)
    match a with
    | ⟨0, _⟩ => show win0_2.index t (0 : Fin 1) * 4 + 1 * d.val = d.val; omega
  · show V m c main_v5 (((cfg0.win 3).blk t).view.emb (ix3 (0 : Fin 1) d j)) = V m c main_v5 _
    refine congrArg (V m c main_v5) (funext fun a => Fin.ext ?_)
    match a with
    | ⟨0, _⟩ => show win0_3.index t (0 : Fin 3) * 1 + 1 * 0 = win0_5.index t (0 : Fin 3) * 1 + 1 * 0; omega
    | ⟨1, _⟩ => show win0_3.index t (1 : Fin 3) * 4 + 1 * d.val = d.val; omega
    | ⟨2, _⟩ => show win0_3.index t (2 : Fin 3) * 1024 + 1 * j.val = j.val; omega

/-- An index of the result is in point t's block iff each coordinate is in the block's range on its axis. -/
theorem mem_blk (t : Fin cfg0.N) (i : S4x4096x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v18).slice (win0_5.rect t)).set ↔ _
  rw [View.set_slice_whole, Rect.mem_set_unit]
  exact Iff.rfl

/-- The 32 blocks tile the result. -/
theorem cover (i : S4x4096x1024.Idx) : ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 1024 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-- The result array after the run: `E` of the five arrays as the region finds them. -/
theorem final (c : Dev nD) : (dats m 0 c).arrAt 5 cfg0.N
    = E (V m c main_arg0) (V m c main_v15) (V m c main_arg4) (V m c main_v5) (V m c main_v17) :=
  (dats m 0 c).arrAt_eq_of_cover 5 _ (fun t _ => flushed_eq m c t) cover

end Cert.KernelIdeal.Final

end
-- ==== Proof.LibTransposeEntry.lean ====
/-
  A transposed matrix read at an entry.

  The transpose with permutation [1, 0] of a [d, k] matrix is the [k, d] matrix whose entry (j, o) is the operand's entry
  (o, j).  General in the extents and the element type: the form a weight matrix W takes where a program contracts
  against W transposed.
-/
import Idealize.ShloMosaic.Lib.Pipeline.Value
import Idealize.ShloMosaic.Lib.ValueIdx

noncomputable section

namespace Cert.LibTransposeEntry

open Idealize.ShloMosaic Idealize.ShloMosaic.ValueIdx

/-- Entry (j, o) of the transpose is entry (o, j) of the operand. -/
theorem transpose_apply_ix2 {α : Type} {d k : ℕ} (W : (⟨2, ![d, k]⟩ : Shape).Idx → α)
    (h : (⟨2, ![d, k]⟩ : Shape).Transposes [1, 0] ⟨2, ![k, d]⟩) (j : Fin k) (o : Fin d) :
    transpose ⟨2, ![k, d]⟩ [1, 0] W h (ix2 j o) = W (ix2 o j) :=
  transpose_apply [1, 0] W h (ix2 j o) (ix2 o j) (fun b => by
    match b with
    | ⟨0, _⟩ => rfl
    | ⟨1, _⟩ => rfl)

end Cert.LibTransposeEntry

end
-- ==== Proof.LibJoinFour.lean ====
/-
  Four matrices with the same number of rows, joined side by side along the columns, read at an entry.

  The joined matrix [n, N] has the columns of the first piece, then those of the second, the third and the fourth; entry
  (p, q) is the entry (p, i) of the piece whose span holds column q, i being q less the widths of the pieces before it.
  General in the extents and the element type; the column's place is a hypothesis on the coordinates' values.
-/
import Idealize.ShloMosaic.Lib.Pipeline.Value
import Idealize.ShloMosaic.Lib.ValueIdx

noncomputable section

namespace Cert.LibJoinFour

open Idealize.ShloMosaic Idealize.ShloMosaic.ValueIdx

variable {α : Type} {n a0 a1 a2 a3 N : ℕ}

/-- A column of the first piece. -/
theorem join4_first (x0 : (⟨2, ![n, a0]⟩ : Shape).Idx → α) (x1 : (⟨2, ![n, a1]⟩ : Shape).Idx → α)
    (x2 : (⟨2, ![n, a2]⟩ : Shape).Idx → α) (x3 : (⟨2, ![n, a3]⟩ : Shape).Idx → α)
    (h : Shape.Concatenates [⟨2, ![n, a0]⟩, ⟨2, ![n, a1]⟩, ⟨2, ![n, a2]⟩, ⟨2, ![n, a3]⟩] ⟨2, ![n, N]⟩ 1)
    (p : Fin n) (q : Fin N) (i : Fin a0) (hq : i.val = q.val) :
    concatenate ⟨2, ![n, N]⟩ 1 [⟨⟨2, ![n, a0]⟩, x0⟩, ⟨⟨2, ![n, a1]⟩, x1⟩, ⟨⟨2, ![n, a2]⟩, x2⟩, ⟨⟨2, ![n, a3]⟩, x3⟩] h (ix2 p q)
      = x0 (ix2 p i) :=
  concatenate_apply_piece (t := ⟨2, ![n, N]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 p q) 0 (by show (0 : ℕ) < 4; omega) ⟨2, ![n, a0]⟩ x0 rfl rfl 0 rfl (ix2 p i)
    (fun b hb => by
      match b with
      | ⟨0, _⟩ => rfl
      | ⟨1, _⟩ => exact absurd rfl hb)
    (by show 0 + i.val = q.val; omega)

/-- A column of the second piece. -/
theorem join4_second (x0 : (⟨2, ![n, a0]⟩ : Shape).Idx → α) (x1 : (⟨2, ![n, a1]⟩ : Shape).Idx → α)
    (x2 : (⟨2, ![n, a2]⟩ : Shape).Idx → α) (x3 : (⟨2, ![n, a3]⟩ : Shape).Idx → α)
    (h : Shape.Concatenates [⟨2, ![n, a0]⟩, ⟨2, ![n, a1]⟩, ⟨2, ![n, a2]⟩, ⟨2, ![n, a3]⟩] ⟨2, ![n, N]⟩ 1)
    (p : Fin n) (q : Fin N) (i : Fin a1) (hq : a0 + i.val = q.val) :
    concatenate ⟨2, ![n, N]⟩ 1 [⟨⟨2, ![n, a0]⟩, x0⟩, ⟨⟨2, ![n, a1]⟩, x1⟩, ⟨⟨2, ![n, a2]⟩, x2⟩, ⟨⟨2, ![n, a3]⟩, x3⟩] h (ix2 p q)
      = x1 (ix2 p i) :=
  concatenate_apply_piece (t := ⟨2, ![n, N]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 p q) 1 (by show (1 : ℕ) < 4; omega) ⟨2, ![n, a1]⟩ x1 rfl rfl (a0 + 0) rfl (ix2 p i)
    (fun b hb => by
      match b with
      | ⟨0, _⟩ => rfl
      | ⟨1, _⟩ => exact absurd rfl hb)
    (by show a0 + 0 + i.val = q.val; omega)

/-- A column of the third piece. -/
theorem join4_third (x0 : (⟨2, ![n, a0]⟩ : Shape).Idx → α) (x1 : (⟨2, ![n, a1]⟩ : Shape).Idx → α)
    (x2 : (⟨2, ![n, a2]⟩ : Shape).Idx → α) (x3 : (⟨2, ![n, a3]⟩ : Shape).Idx → α)
    (h : Shape.Concatenates [⟨2, ![n, a0]⟩, ⟨2, ![n, a1]⟩, ⟨2, ![n, a2]⟩, ⟨2, ![n, a3]⟩] ⟨2, ![n, N]⟩ 1)
    (p : Fin n) (q : Fin N) (i : Fin a2) (hq : a0 + a1 + i.val = q.val) :
    concatenate ⟨2, ![n, N]⟩ 1 [⟨⟨2, ![n, a0]⟩, x0⟩, ⟨⟨2, ![n, a1]⟩, x1⟩, ⟨⟨2, ![n, a2]⟩, x2⟩, ⟨⟨2, ![n, a3]⟩, x3⟩] h (ix2 p q)
      = x2 (ix2 p i) :=
  concatenate_apply_piece (t := ⟨2, ![n, N]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 p q) 2 (by show (2 : ℕ) < 4; omega) ⟨2, ![n, a2]⟩ x2 rfl rfl (a0 + (a1 + 0)) rfl (ix2 p i)
    (fun b hb => by
      match b with
      | ⟨0, _⟩ => rfl
      | ⟨1, _⟩ => exact absurd rfl hb)
    (by show a0 + (a1 + 0) + i.val = q.val; omega)

/-- A column of the fourth piece. -/
theorem join4_fourth (x0 : (⟨2, ![n, a0]⟩ : Shape).Idx → α) (x1 : (⟨2, ![n, a1]⟩ : Shape).Idx → α)
    (x2 : (⟨2, ![n, a2]⟩ : Shape).Idx → α) (x3 : (⟨2, ![n, a3]⟩ : Shape).Idx → α)
    (h : Shape.Concatenates [⟨2, ![n, a0]⟩, ⟨2, ![n, a1]⟩, ⟨2, ![n, a2]⟩, ⟨2, ![n, a3]⟩] ⟨2, ![n, N]⟩ 1)
    (p : Fin n) (q : Fin N) (i : Fin a3) (hq : a0 + a1 + a2 + i.val = q.val) :
    concatenate ⟨2, ![n, N]⟩ 1 [⟨⟨2, ![n, a0]⟩, x0⟩, ⟨⟨2, ![n, a1]⟩, x1⟩, ⟨⟨2, ![n, a2]⟩, x2⟩, ⟨⟨2, ![n, a3]⟩, x3⟩] h (ix2 p q)
      = x3 (ix2 p i) :=
  concatenate_apply_piece (t := ⟨2, ![n, N]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 p q) 3 (by show (3 : ℕ) < 4; omega) ⟨2, ![n, a3]⟩ x3 rfl rfl (a0 + (a1 + (a2 + 0))) rfl (ix2 p i)
    (fun b hb => by
      match b with
      | ⟨0, _⟩ => rfl
      | ⟨1, _⟩ => exact absurd rfl hb)
    (by show a0 + (a1 + (a2 + 0)) + i.val = q.val; omega)

end Cert.LibJoinFour

end
-- ==== Proof.Host.lean ====
/-
  What the region finds in the three arrays the host lines build before it, entry by entry.

  The fused matrix is four pieces side by side: the value, key and gate matrices transposed (1024 columns each) and the
  selector matrix transposed and zero-padded from 4 to 128 columns.  So its entry (h, o) is W_v(o, h) in the first 1024
  columns, W_k(o − 1024, h) in the next, W_r(o − 2048, h) in the next, and W_l(d, h) at column 3072 + d for d < 4.  The
  decayed state is state · exp(−exp(decay)), the decay spread over the batches.  The output matrix is transposed.
  The narrowing of each to the short float format changes no value.
-/
import proofs.«118696_j37864431681706_2_alg».proof.Proof.RunIdeal
import proofs.«118696_j37864431681706_2_alg».proof.Proof.Spec
import proofs.«118696_j37864431681706_2_alg».proof.Proof.LibTransposeEntry
import proofs.«118696_j37864431681706_2_alg».proof.Proof.LibJoinFour
import Idealize.ShloMosaic.Lib.StableHlo.Run
import Idealize.ShloMosaic.Lib.KernelVsHost
import Idealize.ShloMosaic.Lib.Pipeline.Value
import Idealize.ShloMosaic.Lib.ValueIdx
import Idealize.ShloMosaic.PureOps.Ideal

set_option maxRecDepth 16384

noncomputable section

namespace Cert.KernelIdeal.Host

open Idealize.ShloMosaic Idealize.ShloMosaic.TcCoe Idealize.ShloMosaic.ValueIdx Idealize.ShloMosaic.StableHlo
open Idealize.SL.Sem
open Cert.KernelIdeal Cert.KernelIdeal.Gen Cert.KernelIdeal.Run

variable (m : (ℓ : Loc nD τ sig) → Buf (Elt Ideal) ℓ)

/-- The buffers' contents before the last stretch of host lines in front of the region (the one that joins the pieces). -/
abbrev U (c : Dev nD) : Valuation τ sig (Elt Ideal) :=
  StableHlo.after (List.flatten [hostOps0, hostOps0_1]) (fun b => m (c, b))

/-- The region-entry contents are the last stretch run from there. -/
theorem V0_split (c : Dev nD) : V0 m c = StableHlo.after hostOps0_2 (U m c) := by
  show StableHlo.after (hostOps0 ++ (hostOps0_1 ++ (hostOps0_2 ++ []))) _ = StableHlo.after hostOps0_2 (StableHlo.after (hostOps0 ++ (hostOps0_1 ++ [])) _)
  rw [List.append_nil, List.append_nil, ← List.append_assoc, StableHlo.after_append]

/-- The fused matrix is the four pieces joined along the columns. -/
theorem fused_eq (c : Dev nD) : (V m c main_v15 : S1024x3200.Idx → EReal)
    = concatenate S1024x3200 1 [⟨S1024x1024, U m c (Proc.devRef .tc main_v7)⟩, ⟨S1024x1024, U m c (Proc.devRef .tc main_v9)⟩,
        ⟨S1024x1024, U m c (Proc.devRef .tc main_v11)⟩, ⟨S1024x128, U m c (Proc.devRef .tc main_v14)⟩]
        concatenates_S1024x1024_S1024x1024_S1024x1024_S1024x128_S1024x3200_d1 := by
  show V0 m c (Proc.devRef .tc main_v15) = _
  rw [V0_split]
  generalize U m c = W
  simp only [hostOps0_2, after_cons, after_nil]
  rw [unary_result_ne]; rotate_left; decide
  rw [unary_result_ne]; rotate_left; decide
  rw [nary_result]
  rfl

/-- The first piece: the value matrix transposed. -/
theorem piece_v (c : Dev nD) : (U m c (Proc.devRef .tc main_v7) : S1024x1024.Idx → EReal)
    = truncf (F := Ideal) .bf16 (transpose S1024x1024 [1, 0] (m ((c : Thread nD τ).loc main_arg5)) transposes_S1024x1024_S1024x1024_1_0) bitsLt_bf16_f32 := by
  dsimp only [U]
  simp only [hostOps0, hostOps0_1, List.flatten_cons, List.flatten_nil, List.append_nil, List.cons_append, List.nil_append]
  after_results <;> rfl

/-- The second piece: the key matrix transposed. -/
theorem piece_k (c : Dev nD) : (U m c (Proc.devRef .tc main_v9) : S1024x1024.Idx → EReal)
    = truncf (F := Ideal) .bf16 (transpose S1024x1024 [1, 0] (m ((c : Thread nD τ).loc main_arg6)) transposes_S1024x1024_S1024x1024_1_0) bitsLt_bf16_f32 := by
  dsimp only [U]
  simp only [hostOps0, hostOps0_1, List.flatten_cons, List.flatten_nil, List.append_nil, List.cons_append, List.nil_append]
  after_results <;> rfl

/-- The third piece: the gate matrix transposed. -/
theorem piece_r (c : Dev nD) : (U m c (Proc.devRef .tc main_v11) : S1024x1024.Idx → EReal)
    = truncf (F := Ideal) .bf16 (transpose S1024x1024 [1, 0] (m ((c : Thread nD τ).loc main_arg7)) transposes_S1024x1024_S1024x1024_1_0) bitsLt_bf16_f32 := by
  dsimp only [U]
  simp only [hostOps0, hostOps0_1, List.flatten_cons, List.flatten_nil, List.append_nil, List.cons_append, List.nil_append]
  after_results <;> rfl

/-- The fourth piece: the selector matrix transposed, padded on the right with the word of zero. -/
theorem piece_l (c : Dev nD) : (U m c (Proc.devRef .tc main_v14) : S1024x128.Idx → EReal)
    = pad S1024x128 ![0, 0] ![0, 124] ![0, 0]
        (truncf (F := Ideal) .bf16 (transpose S1024x4 [1, 0] (m ((c : Thread nD τ).loc main_arg3)) transposes_S4x1024_S1024x4_1_0) bitsLt_bf16_f32)
        (sitofp (F := Ideal) .bf16 (constantI S_ 32 0#32)) pads_S1024x4_S1024x128_000_01240 h_S_ := by
  dsimp only [U]
  simp only [hostOps0, hostOps0_1, List.flatten_cons, List.flatten_nil, List.append_nil, List.cons_append, List.nil_append]
  after_results <;> rfl

/-- The fused matrix at a column of its value part. -/
theorem fused_v (c : Dev nD) (h o : Fin 1024) :
    V m c main_v15 (ix2 h (Cert.Spec.colV o)) = m ((c : Thread nD τ).loc main_arg5) (ix2 o h) := by
  rw [fused_eq]
  refine (Cert.LibJoinFour.join4_first _ _ _ _ _ h (Cert.Spec.colV o) o rfl).trans ?_
  rw [piece_v]
  exact Cert.LibTransposeEntry.transpose_apply_ix2 _ _ h o

/-- At a column of its key part. -/
theorem fused_k (c : Dev nD) (h o : Fin 1024) :
    V m c main_v15 (ix2 h (Cert.Spec.colK o)) = m ((c : Thread nD τ).loc main_arg6) (ix2 o h) := by
  rw [fused_eq]
  refine (Cert.LibJoinFour.join4_second _ _ _ _ _ h (Cert.Spec.colK o) o rfl).trans ?_
  rw [piece_k]
  exact Cert.LibTransposeEntry.transpose_apply_ix2 _ _ h o

/-- At a column of its gate part. -/
theorem fused_r (c : Dev nD) (h o : Fin 1024) :
    V m c main_v15 (ix2 h (Cert.Spec.colR o)) = m ((c : Thread nD τ).loc main_arg7) (ix2 o h) := by
  rw [fused_eq]
  refine (Cert.LibJoinFour.join4_third _ _ _ _ _ h (Cert.Spec.colR o) o rfl).trans ?_
  rw [piece_r]
  exact Cert.LibTransposeEntry.transpose_apply_ix2 _ _ h o

/-- At one of its four selector columns: inside the padded piece's operand. -/
theorem fused_l (c : Dev nD) (h : Fin 1024) (d : Fin 4) :
    V m c main_v15 (ix2 h (Cert.Spec.colL d)) = m ((c : Thread nD τ).loc main_arg3) (ix2 d h) := by
  rw [fused_eq]
  refine (Cert.LibJoinFour.join4_fourth _ _ _ _ _ h (Cert.Spec.colL d) (⟨d.val, by omega⟩ : Fin 128) rfl).trans ?_
  rw [piece_l]
  refine (pad_apply_of_inside ![0, 0] ![0, 124] ![0, 0] _ _ pads_S1024x4_S1024x128_000_01240 h_S_ (ix2 h (⟨d.val, by omega⟩ : Fin 128)) (ix2 h d) (fun a => by
    match a with
    | ⟨0, _⟩ => show h.val = 0 + h.val * (0 + 1); omega
    | ⟨1, _⟩ => show d.val = 0 + d.val * (0 + 1); omega)).trans ?_
  exact Cert.LibTransposeEntry.transpose_apply_ix2 _ _ h d

/-- The output matrix as the region finds it: transposed. -/
theorem outmat_eq (c : Dev nD) : (V m c main_v17 : S1024x1024.Idx → EReal)
    = truncf (F := Ideal) .bf16 (transpose S1024x1024 [1, 0] (m ((c : Thread nD τ).loc main_arg8)) transposes_S1024x1024_S1024x1024_1_0) bitsLt_bf16_f32 := by
  dsimp only [V, V0]
  simp only [hostOps0, hostOps0_1, hostOps0_2, List.flatten_cons, List.flatten_nil, List.append_nil, List.cons_append, List.nil_append]
  after_results <;> rfl

theorem outmat_at (c : Dev nD) (h o : Fin 1024) :
    V m c main_v17 (ix2 h o) = m ((c : Thread nD τ).loc main_arg8) (ix2 o h) := by
  rw [outmat_eq]
  exact Cert.LibTransposeEntry.transpose_apply_ix2 _ _ h o

/-- The decayed state as the region finds it. -/
theorem state_eq (c : Dev nD) : (V m c main_v5 : S4x4x1024.Idx → EReal)
    = mulf (F := Ideal) (φ := .f32) (m ((c : Thread nD τ).loc main_arg1))
        (broadcastInDim S4x4x1024 ![0, 1, 2] bcast_S1x4x1024_S4x4x1024_0_1_2
          (broadcastInDim S1x4x1024 ![1, 2] bcast_S4x1024_S1x4x1024_1_2
            (Host.exp (F := Ideal) (φ := .f32) (Host.negf (F := Ideal) (φ := .f32) (Host.exp (F := Ideal) (φ := .f32) (m ((c : Thread nD τ).loc main_arg2))))))) := by
  dsimp only [V, V0]
  simp only [hostOps0, hostOps0_1, hostOps0_2, List.flatten_cons, List.flatten_nil, List.append_nil, List.cons_append, List.nil_append]
  after_results <;> rfl

/-- A [4, 1024] matrix spread over the batches, [4,1024] → [1,4,1024] → [4,4,1024], read at (b, d, j): its entry (d, j). -/
theorem spread_at (x : S4x1024.Idx → EReal) (b d : Fin 4) (j : Fin 1024) :
    broadcastInDim S4x4x1024 ![0, 1, 2] bcast_S1x4x1024_S4x4x1024_0_1_2
      (broadcastInDim S1x4x1024 ![1, 2] bcast_S4x1024_S1x4x1024_1_2 x) (ix3 b d j) = x (ix2 d j) := by
  refine (broadcastInDim_apply _ bcast_S1x4x1024_S4x4x1024_0_1_2 _ (ix3 b d j) (ix3 (0 : Fin 1) d j) (fun a => by
    match a with
    | ⟨0, _⟩ => show (0 : ℕ) = if (1 : ℕ) = 1 then 0 else b.val; rw [if_pos rfl]
    | ⟨1, _⟩ => show d.val = if (4 : ℕ) = 1 then 0 else d.val; rw [if_neg (by decide)]
    | ⟨2, _⟩ => show j.val = if (1024 : ℕ) = 1 then 0 else j.val; rw [if_neg (by decide)])).trans ?_
  exact broadcastInDim_apply _ bcast_S4x1024_S1x4x1024_1_2 x (ix3 (0 : Fin 1) d j) (ix2 d j) (fun a => by
    match a with
    | ⟨0, _⟩ => show d.val = if (4 : ℕ) = 1 then 0 else d.val; rw [if_neg (by decide)]
    | ⟨1, _⟩ => show j.val = if (1024 : ℕ) = 1 then 0 else j.val; rw [if_neg (by decide)])

theorem state_at (c : Dev nD) (b d : Fin 4) (j : Fin 1024) :
    V m c main_v5 (ix3 b d j)
      = Cert.Spec.decayed (m ((c : Thread nD τ).loc main_arg1) (ix3 b d j)) (m ((c : Thread nD τ).loc main_arg2) (ix2 d j)) := by
  rw [state_eq, mulf_apply, spread_at]
  rfl

end Cert.KernelIdeal.Host

end
-- ==== Proof.Whole.lean ====
/-
  The two results as functions of the nine argument arrays, entry by entry.

  The output [4, 4096, 1024] at (b, t, c) is the row function of row (b, t) of the input, the four weight matrices, the
  selector matrix and bias, and batch b of the state decayed entry by entry, at c.  The new state [4, 4, 1024] at
  (b, d, j) is the decayed state entry plus key times value of the last row (t = 4095) of batch b at j.
-/
import proofs.«118696_j37864431681706_2_alg».proof.Proof.Spec
import Idealize.ShloMosaic.Lib.ValueIdx

noncomputable section

namespace Cert.Whole

open Idealize.ShloMosaic Idealize.ShloMosaic.ValueIdx

/-- The output array. Arguments in the programs' order: input, state, decay, selector matrix, bias, value, key, gate and
    output matrices. -/
def out (a0 : (⟨3, ![4, 4096, 1024]⟩ : Shape).Idx → EReal) (a1 : (⟨3, ![4, 4, 1024]⟩ : Shape).Idx → EReal)
    (a2 a3 : (⟨2, ![4, 1024]⟩ : Shape).Idx → EReal) (a4 : (⟨1, ![4]⟩ : Shape).Idx → EReal)
    (a5 a6 a7 a8 : (⟨2, ![1024, 1024]⟩ : Shape).Idx → EReal) : (⟨3, ![4, 4096, 1024]⟩ : Shape).Idx → EReal := fun i =>
  Cert.Spec.rowOut (fun h => a0 (ix3 (i 0) (i 1) h)) (fun o h => a5 (ix2 o h)) (fun o h => a6 (ix2 o h)) (fun o h => a7 (ix2 o h))
    (fun o h => a8 (ix2 o h)) (fun d h => a3 (ix2 d h)) (fun d => a4 (ix1 d))
    (fun d j => Cert.Spec.decayed (a1 (ix3 (i 0) d j)) (a2 (ix2 d j))) (i 2)

/-- The new state array. -/
def newState (a0 : (⟨3, ![4, 4096, 1024]⟩ : Shape).Idx → EReal) (a1 : (⟨3, ![4, 4, 1024]⟩ : Shape).Idx → EReal)
    (a2 : (⟨2, ![4, 1024]⟩ : Shape).Idx → EReal) (a5 a6 : (⟨2, ![1024, 1024]⟩ : Shape).Idx → EReal) :
    (⟨3, ![4, 4, 1024]⟩ : Shape).Idx → EReal := fun i =>
  Cert.Spec.rowState (fun h => a0 (ix3 (i 0) (4095 : Fin 4096) h)) (fun o h => a5 (ix2 o h)) (fun o h => a6 (ix2 o h))
    (a1 (ix3 (i 0) (i 1) (i 2))) (a2 (ix2 (i 1) (i 2))) (i 2)

end Cert.Whole

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.Tail.lean ====
/-
  The new state: what the ten host lines after the region leave.

  They cut the last row (t = 4095) of every batch out of the input, project it against the value and key matrices
  transposed, multiply the two projections entry by entry, spread the product over the four levels and add it to the
  decayed state.  So entry (b, d, j) is the decayed state entry plus (last row · W_k row j) · (last row · W_v row j).
  The region has changed none of the buffers these lines read.
-/
import proofs.«118696_j37864431681706_2_alg».proof.Proof.RunIdeal
import proofs.«118696_j37864431681706_2_alg».proof.Proof.Host
import proofs.«118696_j37864431681706_2_alg».proof.Proof.Spec
import proofs.«118696_j37864431681706_2_alg».proof.Proof.Whole
import proofs.«118696_j37864431681706_2_alg».proof.Proof.LibPlainDot
import proofs.«118696_j37864431681706_2_alg».proof.Proof.LibTransposeEntry
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Tail

open Idealize.ShloMosaic Idealize.ShloMosaic.TcCoe Idealize.ShloMosaic.ValueIdx Idealize.ShloMosaic.StableHlo
open Idealize.SL.Sem
open Idealize.ShloMosaic.Pipeline (Dat)
open Cert.KernelIdeal Cert.KernelIdeal.Gen Cert.KernelIdeal.Run

variable (m : (ℓ : Loc nD τ sig) → Buf (Elt Ideal) ℓ)

/-- The last row of each batch, cut out and laid flat: entry (b, h) is the input at (b, 4095, h). -/
theorem lastRow_at (x0 : S4x4096x1024.Idx → EReal) (b : Fin 4) (h : Fin 1024) :
    shapeCast S4x1024 (extractStridedSlice S4x1x1024 ![0, 4095, 0] x0 slices_S4x4096x1024_S4x1x1024_0_4095_0) shapeCasts_S4x1x1024_S4x1024 (ix2 b h)
      = x0 (ix3 b (4095 : Fin 4096) h) :=
  (shapeCast_apply _ shapeCasts_S4x1x1024_S4x1024 (ix2 b h) (ix3 b (0 : Fin 1) h) (by
      rw [Shape.rowMajor_val_three, Shape.rowMajor_val_two]
      show (b.val * 1 + 0) * 1024 + h.val = b.val * 1024 + h.val
      omega)).trans
    (extractStridedSlice_apply ![0, 4095, 0] x0 slices_S4x4096x1024_S4x1x1024_0_4095_0 (ix3 b (0 : Fin 1) h) (ix3 b (4095 : Fin 4096) h) (fun a => by
      match a with
      | ⟨0, _⟩ => show b.val = 0 + b.val; omega
      | ⟨1, _⟩ => show (4095 : ℕ) = 4095 + 0; rfl
      | ⟨2, _⟩ => show h.val = 0 + h.val; omega))

/-- The last row projected against a matrix transposed: at (b, j), the row against row j of the matrix. -/
theorem proj_at (x0 : S4x4096x1024.Idx → EReal) (w : S1024x1024.Idx → EReal) (b : Fin 4) (j : Fin 1024) :
    Host.dotGeneral (F := Ideal) (φ₁ := .f32) (φ₂ := .f32) dot_S4x1024_S1024x1024_S4x1024_1_0_0_1_n_n none
        (shapeCast S4x1024 (extractStridedSlice S4x1x1024 ![0, 4095, 0] x0 slices_S4x4096x1024_S4x1x1024_0_4095_0) shapeCasts_S4x1x1024_S4x1024)
        (transpose S1024x1024 [1, 0] w transposes_S1024x1024_S1024x1024_1_0) (ix2 b j)
      = Cert.Spec.dot (fun h => x0 (ix3 b (4095 : Fin 4096) h)) (fun h => w (ix2 j h)) := by
  unfold Host.dotGeneral
  refine (Cert.LibPlainDot.dotGeneral_apply dot_S4x1024_S1024x1024_S4x1024_1_0_0_1_n_n rfl rfl rfl rfl rfl rfl _ _ _ _ b j).trans ?_
  unfold Cert.Spec.dot
  refine Finset.sum_congr rfl fun h _ => ?_
  rw [lastRow_at, Cert.LibTransposeEntry.transpose_apply_ix2]

/-- A [4, 1024] matrix spread over the four levels, [4,1024] → [4,1,1024] → [4,4,1024], read at (b, d, j): its entry (b, j). -/
theorem spread_at (y : S4x1024.Idx → EReal) (b d : Fin 4) (j : Fin 1024) :
    broadcastInDim S4x4x1024 ![0, 1, 2] bcast_S4x1x1024_S4x4x1024_0_1_2
      (broadcastInDim S4x1x1024 ![0, 2] bcast_S4x1024_S4x1x1024_0_2 y) (ix3 b d j) = y (ix2 b j) := by
  refine (broadcastInDim_apply _ bcast_S4x1x1024_S4x4x1024_0_1_2 _ (ix3 b d j) (ix3 b (0 : Fin 1) j) (fun a => by
    match a with
    | ⟨0, _⟩ => show b.val = if (4 : ℕ) = 1 then 0 else b.val; rw [if_neg (by decide)]
    | ⟨1, _⟩ => show (0 : ℕ) = if (1 : ℕ) = 1 then 0 else d.val; rw [if_pos rfl]
    | ⟨2, _⟩ => show j.val = if (1024 : ℕ) = 1 then 0 else j.val; rw [if_neg (by decide)])).trans ?_
  exact broadcastInDim_apply _ bcast_S4x1024_S4x1x1024_0_2 y (ix3 b (0 : Fin 1) j) (ix2 b j) (fun a => by
    match a with
    | ⟨0, _⟩ => show b.val = if (4 : ℕ) = 1 then 0 else b.val; rw [if_neg (by decide)]
    | ⟨1, _⟩ => show j.val = if (1024 : ℕ) = 1 then 0 else j.val; rw [if_neg (by decide)])

/-- The ten lines as one expression of the four buffers they read, from any contents W. -/
theorem tail_of (W : Valuation τ sig (Elt Ideal)) :
    (StableHlo.after hostOps1 W (Proc.devRef .tc main_v28) : S4x4x1024.Idx → EReal)
      = addf (F := Ideal) (φ := .f32) (W (Proc.devRef .tc main_v5))
          (broadcastInDim S4x4x1024 ![0, 1, 2] bcast_S4x1x1024_S4x4x1024_0_1_2
            (broadcastInDim S4x1x1024 ![0, 2] bcast_S4x1024_S4x1x1024_0_2
              (mulf (F := Ideal) (φ := .f32)
                (Host.dotGeneral (F := Ideal) (φ₁ := .f32) (φ₂ := .f32) dot_S4x1024_S1024x1024_S4x1024_1_0_0_1_n_n none
                  (shapeCast S4x1024 (extractStridedSlice S4x1x1024 ![0, 4095, 0] (W (Proc.devRef .tc main_arg0)) slices_S4x4096x1024_S4x1x1024_0_4095_0) shapeCasts_S4x1x1024_S4x1024)
                  (transpose S1024x1024 [1, 0] (W (Proc.devRef .tc main_arg6)) transposes_S1024x1024_S1024x1024_1_0))
                (Host.dotGeneral (F := Ideal) (φ₁ := .f32) (φ₂ := .f32) dot_S4x1024_S1024x1024_S4x1024_1_0_0_1_n_n none
                  (shapeCast S4x1024 (extractStridedSlice S4x1x1024 ![0, 4095, 0] (W (Proc.devRef .tc main_arg0)) slices_S4x4096x1024_S4x1x1024_0_4095_0) shapeCasts_S4x1x1024_S4x1024)
                  (transpose S1024x1024 [1, 0] (W (Proc.devRef .tc main_arg5)) transposes_S1024x1024_S1024x1024_1_0))))) := by
  simp only [hostOps1]
  after_results <;> rfl

/-- The same, entry by entry, with the four buffers' contents named. -/
theorem tail_at (W : Valuation τ sig (Elt Ideal)) (s5 : S4x4x1024.Idx → EReal) (x0 : S4x4096x1024.Idx → EReal)
    (x5 x6 : S1024x1024.Idx → EReal) (hs : W (Proc.devRef .tc main_v5) = s5) (h0 : W (Proc.devRef .tc main_arg0) = x0)
    (h5 : W (Proc.devRef .tc main_arg5) = x5) (h6 : W (Proc.devRef .tc main_arg6) = x6) (b d : Fin 4) (j : Fin 1024) :
    (StableHlo.after hostOps1 W (Proc.devRef .tc main_v28) : S4x4x1024.Idx → EReal) (ix3 b d j)
      = s5 (ix3 b d j)
        + Cert.Spec.dot (fun h => x0 (ix3 b (4095 : Fin 4096) h)) (fun h => x6 (ix2 j h))
          * Cert.Spec.dot (fun h => x0 (ix3 b (4095 : Fin 4096) h)) (fun h => x5 (ix2 j h)) := by
  subst hs h0 h5 h6
  rw [tail_of]
  show _ + _ = _
  rw [spread_at]
  show _ + Host.dotGeneral (F := Ideal) (φ₁ := .f32) (φ₂ := .f32) _ none _ _ (ix2 b j) * Host.dotGeneral (F := Ideal) (φ₁ := .f32) (φ₂ := .f32) _ none _ _ (ix2 b j) = _
  rw [proj_at, proj_at]

/-- The new state after the run, as a function of the arguments. -/
theorem newState_eq (c : Dev nD) :
    Pipeline.afterTail₀ cfgs (dats m) 0 (V0 m) [hostOps1] c main_v28
      = Cert.Whole.newState (m ((c : Thread nD τ).loc main_arg0)) (m ((c : Thread nD τ).loc main_arg1)) (m ((c : Thread nD τ).loc main_arg2))
          (m ((c : Thread nD τ).loc main_arg5)) (m ((c : Thread nD τ).loc main_arg6)) := by
  unfold Pipeline.afterTail₀
  show StableHlo.after hostOps1 _ (Proc.devRef .tc main_v28) = _
  generalize hW : Pipeline.withArrays _ _ _ _ = W
  have h5 : (W (Proc.devRef .tc main_v5) : S4x4x1024.Idx → EReal) = V m c main_v5 := by
    rw [← hW]
    exact (Pipeline.withArrays_arr spec0 launch0.win.arr_inj c _ _ 3).trans (((dats m 0 c).arrAt_in 3 rfl _).trans (A_eq m c 3))
  have h0 : (W (Proc.devRef .tc main_arg0) : S4x4096x1024.Idx → EReal) = m ((c : Thread nD τ).loc main_arg0) := by
    rw [← hW]
    exact (Pipeline.withArrays_arr spec0 launch0.win.arr_inj c _ _ 0).trans
      (((dats m 0 c).arrAt_in 0 rfl _).trans ((A_eq m c 0).trans (V_main_arg0 m c)))
  have ha5 : (W (Proc.devRef .tc main_arg5) : S1024x1024.Idx → EReal) = m ((c : Thread nD τ).loc main_arg5) := by
    rw [← hW]
    exact (Pipeline.withArrays_of_ne _ c (V0 m c) _ main_arg5 (by exact (by decide : ∀ w, Pipeline.arrRef spec0 w ≠ main_arg5))).trans (V_main_arg5 m c)
  have ha6 : (W (Proc.devRef .tc main_arg6) : S1024x1024.Idx → EReal) = m ((c : Thread nD τ).loc main_arg6) := by
    rw [← hW]
    exact (Pipeline.withArrays_of_ne _ c (V0 m c) _ main_arg6 (by exact (by decide : ∀ w, Pipeline.arrRef spec0 w ≠ main_arg6))).trans (V_main_arg6 m c)
  funext i
  obtain ⟨b, d, j, rfl⟩ : ∃ (b d : Fin 4) (j : Fin 1024), i = ix3 b d j := ⟨i 0, i 1, i 2, eq_ix3 i⟩
  rw [tail_at W _ _ _ _ h5 h0 ha5 ha6 b d j, Cert.KernelIdeal.Host.state_at]
  rfl

end Cert.KernelIdeal.Tail

end
-- ==== Proof.Result.lean ====
/-
  The idealized program's run with both results named: the output array is the layer's function of the nine arguments
  (the 32 blocks tile it, and the arrays the host lines prepared are the arguments re-laid), the new state is the ten
  closing lines' function of them, and the arguments end unchanged.
-/
import proofs.«118696_j37864431681706_2_alg».proof.Proof.RunIdeal
import proofs.«118696_j37864431681706_2_alg».proof.Proof.Final
import proofs.«118696_j37864431681706_2_alg».proof.Proof.Host
import proofs.«118696_j37864431681706_2_alg».proof.Proof.Tail
import proofs.«118696_j37864431681706_2_alg».proof.Proof.Whole

set_option maxRecDepth 16384

noncomputable section

namespace Cert.KernelIdeal.Result

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Run

variable (m : (ℓ : Loc nD τ sig) → Buf (Elt Ideal) ℓ) (ρ : Dev nD → PrngReg)

/-- The output array after the run, as a function of the arguments: the five arrays the region reads are the arguments
    themselves (input, bias) or the arguments re-laid by the host lines (fused matrix, decayed state, output matrix). -/
theorem out_eq (c : Dev nD) : (dats m 0 c).arrAt 5 cfg0.N
    = Cert.Whole.out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  rw [Cert.KernelIdeal.Final.final]
  funext i
  unfold Cert.KernelIdeal.Final.E Cert.Whole.out
  refine Cert.KernelIdeal.Final.rowOut_congr (i 2) (fun h => ?_) (fun o h => ?_) (fun o h => ?_) (fun o h => ?_) (fun o h => ?_)
    (fun d h => ?_) (fun d => ?_) (fun d j => ?_)
  · exact congrFun (V_main_arg0 m c) _
  · exact Cert.KernelIdeal.Host.fused_v m c h o
  · exact Cert.KernelIdeal.Host.fused_k m c h o
  · exact Cert.KernelIdeal.Host.fused_r m c h o
  · exact Cert.KernelIdeal.Host.outmat_at m c h o
  · exact Cert.KernelIdeal.Host.fused_l m c h d
  · exact congrFun (V_main_arg4 m c) _
  · exact Cert.KernelIdeal.Host.state_at m c (i 0) d j

/-- Every weakly fair execution terminates with the output at the layer's function of the arguments, the new state at its
    function of them, and the arguments unchanged. -/
theorem run : θ_run defs (onTc (τ := τ) (main (F := Ideal))) ⟨m, fun _ => 0, ρ⟩ (fun r => ∀ c : Dev nD,
      r.2.mem ((c.tc : Thread nD τ).loc main_v18)
        = Cert.Whole.out (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c.tc : Thread nD τ).loc main_v28)
        = Cert.Whole.newState (m ((c : Thread nD τ).loc main_arg0)) (m ((c : Thread nD τ).loc main_arg1)) (m ((c : Thread nD τ).loc main_arg2))
            (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    ((h c).1 5).trans (out_eq m c),
    ((h c).2 main_v28 (Pipeline.mem_restRefs_of main_v28 (by decide) (by decide))).trans (Cert.KernelIdeal.Tail.newState_eq m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).1 2).trans (((dats m 0 c).arrAt_in 2 rfl _).trans ((A_eq m c 2).trans (V_main_arg4 m c))),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c)⟩)
    (run_main m ρ)

end Cert.KernelIdeal.Result

end
-- ==== Proof.LibLastAxisReduce.lean ====
/-
  The host's maximum-reduce over the LAST axis of a rank-3 array, read at one entry.

  For an [n0, n1, n2] array reduced over its third axis into an [n0, n1] matrix, the entry at (b, i) is the fold of
  `max`, from the start value, over the entries (b, i, 0), …, (b, i, n2-1).  Stated at the extended reals, for any
  extents and float format: the rank-3 companion of the reduction along the rows of a matrix.
-/
import Idealize.ShloMosaic.PureOps.Ideal.Laws
import Idealize.ShloMosaic.Lib.ValueIdx

noncomputable section
namespace Cert.LibLastAxisReduce
open Idealize.ShloMosaic Idealize.ShloMosaic.ValueIdx

variable {φ : FTy}

/-- Entry (b, i) of the result with the coordinate o put back on the reduced axis is the entry (b, i, o). -/
theorem lift_last {n0 n1 n2 : ℕ} (h : (⟨3, ![n0, n1, n2]⟩ : Shape).Reduces [2] ⟨2, ![n0, n1]⟩)
    (b : Fin n0) (i : Fin n1) (o : Fin n2) : h.lift (ix2 b i) o = ix3 b i o :=
  funext fun a => Fin.ext (by
    match a with
    | ⟨0, _⟩ => rfl
    | ⟨1, _⟩ => rfl
    | ⟨2, _⟩ => rfl)

/-- The host's maximum-reduce over the last axis: the fold of `max` over that axis from the start value. -/
theorem hostReduce_max_last {n0 n1 n2 : ℕ} {u : Shape} (x : FVec Ideal ⟨3, ![n0, n1, n2]⟩ φ) (init : u.Idx → Ideal φ)
    (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (b : Fin n0) (i : Fin n1) :
    Host.reduce (FloatOps.maximumf (F := Ideal) (φ := φ)) x init h' hu (ix2 b i)
      = (Finset.univ : Finset (Fin n2)).fold max (init (Shape.Idx.first hu)) (fun o => x (ix3 b i o)) :=
  (Host.reduce_eq_fold_single (FloatOps.maximumf (F := Ideal) (φ := φ)) x init h' h hu (ix2 b i)).trans
    (congrArg (Finset.fold max (init (Shape.Idx.first hu)) · Finset.univ) (funext fun o => congrArg x (lift_last h b i o)))

end Cert.LibLastAxisReduce
end
-- ==== Proof.RefValue.lean ====
/-
  The reference's two results, read index by index.

  Every stage of the reference is read at explicit coordinates (b, t, ·): the three projections and the selector
  projection as row-against-row sums, the softmax over the four levels (maximum, shift, exponential, sum, quotient),
  the decayed state, and the gated combination; the output is then the hidden row against a row of the output
  matrix, and the new state the decayed state plus key times value of the last row.  Nothing is rearranged: each
  stage is the specification's term as it stands.
-/
import proofs.«118696_j37864431681706_2_alg».proof.Proof.Gen.ReferenceIdeal.Run
import proofs.«118696_j37864431681706_2_alg».proof.Proof.Gen.ReferenceIdeal.Read
import proofs.«118696_j37864431681706_2_alg».proof.Proof.Spec
import proofs.«118696_j37864431681706_2_alg».proof.Proof.LibLastAxisReduce

noncomputable section

namespace Cert.RefValue

open Idealize.ShloMosaic Idealize.ShloMosaic.ValueIdx Cert.ReferenceIdeal Cert.ReferenceIdeal.Read
open scoped BigOperators

section
variable (x0 : (⟨S4x4096x1024, .f32⟩ : BufTy).Contents (Elt Ideal)) (x1 : (⟨S4x4x1024, .f32⟩ : BufTy).Contents (Elt Ideal))
  (x2 x3 : (⟨S4x1024, .f32⟩ : BufTy).Contents (Elt Ideal)) (x4 : (⟨S4, .f32⟩ : BufTy).Contents (Elt Ideal))
  (x5 x6 x7 x8 : (⟨S1024x1024, .f32⟩ : BufTy).Contents (Elt Ideal))

/-! ## The projections -/

/-- The value projection at (b, t, o): row (b, t) of the input against row o of the value matrix. -/
theorem v0_at (b : Fin 4) (t : Fin 4096) (o : Fin 1024) :
    val_main_v0 (F := Ideal) x0 x5 (ix3 b t o) = Cert.Spec.dot (fun h => x0 (ix3 b t h)) (fun h => x5 (ix2 o h)) := by
  rw [val_main_v0_apply]
  unfold Cert.Spec.dot
  refine Finset.sum_congr rfl fun k _ => ?_
  have el : lidx_main_v0 (ix3 b t o) k = ix3 b t k := funext fun a => Fin.ext (by
    match a with
    | ⟨0, _⟩ => rfl
    | ⟨1, _⟩ => rfl
    | ⟨2, _⟩ => rfl)
  have er : ridx_main_v0 (ix3 b t o) k = ix2 o k := funext fun a => Fin.ext (by
    match a with
    | ⟨0, _⟩ => rfl
    | ⟨1, _⟩ => rfl)
  rw [el, er]

/-- The key projection at (b, t, o): row (b, t) of the input against row o of the key matrix. -/
theorem v1_at (b : Fin 4) (t : Fin 4096) (o : Fin 1024) :
    val_main_v1 (F := Ideal) x0 x6 (ix3 b t o) = Cert.Spec.dot (fun h => x0 (ix3 b t h)) (fun h => x6 (ix2 o h)) := by
  rw [val_main_v1_apply]
  unfold Cert.Spec.dot
  refine Finset.sum_congr rfl fun k _ => ?_
  have el : lidx_main_v1 (ix3 b t o) k = ix3 b t k := funext fun a => Fin.ext (by
    match a with
    | ⟨0, _⟩ => rfl
    | ⟨1, _⟩ => rfl
    | ⟨2, _⟩ => rfl)
  have er : ridx_main_v1 (ix3 b t o) k = ix2 o k := funext fun a => Fin.ext (by
    match a with
    | ⟨0, _⟩ => rfl
    | ⟨1, _⟩ => rfl)
  rw [el, er]

/-- The gate projection at (b, t, o): row (b, t) of the input against row o of the gate matrix. -/
theorem v2_at (b : Fin 4) (t : Fin 4096) (o : Fin 1024) :
    val_main_v2 (F := Ideal) x0 x7 (ix3 b t o) = Cert.Spec.dot (fun h => x0 (ix3 b t h)) (fun h => x7 (ix2 o h)) := by
  rw [val_main_v2_apply]
  unfold Cert.Spec.dot
  refine Finset.sum_congr rfl fun k _ => ?_
  have el : lidx_main_v2 (ix3 b t o) k = ix3 b t k := funext fun a => Fin.ext (by
    match a with
    | ⟨0, _⟩ => rfl
    | ⟨1, _⟩ => rfl
    | ⟨2, _⟩ => rfl)
  have er : ridx_main_v2 (ix3 b t o) k = ix2 o k := funext fun a => Fin.ext (by
    match a with
    | ⟨0, _⟩ => rfl
    | ⟨1, _⟩ => rfl)
  rw [el, er]

/-- The selector projection at (b, t, d): row (b, t) of the input against selector row d. -/
theorem v9_at (b : Fin 4) (t : Fin 4096) (d : Fin 4) :
    val_main_v9 (F := Ideal) x0 x3 (ix3 b t d) = Cert.Spec.dot (fun h => x0 (ix3 b t h)) (fun h => x3 (ix2 d h)) := by
  rw [val_main_v9_apply]
  unfold Cert.Spec.dot
  refine Finset.sum_congr rfl fun k _ => ?_
  have el : lidx_main_v9 (ix3 b t d) k = ix3 b t k := funext fun a => Fin.ext (by
    match a with
    | ⟨0, _⟩ => rfl
    | ⟨1, _⟩ => rfl
    | ⟨2, _⟩ => rfl)
  have er : ridx_main_v9 (ix3 b t d) k = ix2 d k := funext fun a => Fin.ext (by
    match a with
    | ⟨0, _⟩ => rfl
    | ⟨1, _⟩ => rfl)
  rw [el, er]

/-! ## The level weights: a softmax over the four levels -/

/-- The level logits at (b, t, d): the selector projection plus the bias of level d. -/
theorem v12_at (b : Fin 4) (t : Fin 4096) (d : Fin 4) :
    val_main_v12 (F := Ideal) x0 x3 x4 (ix3 b t d) = (Cert.Spec.logits (fun h => x0 (ix3 b t h)) (fun d h => x3 (ix2 d h)) (fun d => x4 (ix1 d))) d := by
  rw [val_main_v12_apply, v9_at, val_main_v11_apply, val_main_v10_apply]
  have e : idx_main_v10 (idx_main_v11 (ix3 b t d)) = ix1 d := funext fun a => Fin.ext (by
    match a with
    | ⟨0, _⟩ => rfl)
  rw [e]
  rfl

/-- The maximum-reduce over the level axis at (b, t): the fold of max over the four logits, from minus infinity. -/
theorem v13_at (b : Fin 4) (t : Fin 4096) :
    val_main_v13 (F := Ideal) x0 x3 x4 (ix2 b t)
      = (Finset.univ : Finset (Fin 4)).fold max Cert.Spec.negInf (Cert.Spec.logits (fun h => x0 (ix3 b t h)) (fun d h => x3 (ix2 d h)) (fun d => x4 (ix1 d))) := by
  unfold val_main_v13
  refine (Cert.LibLastAxisReduce.hostReduce_max_last _ _ _ (by decide) _ b t).trans ?_
  have e : (fun o : Fin 4 => val_main_v12 (F := Ideal) x0 x3 x4 (ix3 b t o)) = (Cert.Spec.logits (fun h => x0 (ix3 b t h)) (fun d h => x3 (ix2 d h)) (fun d => x4 (ix1 d))) :=
    funext fun o => v12_at x0 x3 x4 b t o
  rw [e]
  rfl

/-- What the softmax subtracts at (b, t): the folded maximum taken once more against minus infinity. -/
theorem v15_at (b : Fin 4) (t : Fin 4096) :
    val_main_v15 (F := Ideal) x0 x3 x4 (ix2 b t) = Cert.Spec.top (Cert.Spec.logits (fun h => x0 (ix3 b t h)) (fun d h => x3 (ix2 d h)) (fun d => x4 (ix1 d))) := by
  rw [val_main_v15_apply, v13_at, val_main_v14_apply]
  rfl

/-- The subtracted maximum spread back over the level axis. -/
theorem v17_at (b : Fin 4) (t : Fin 4096) (d : Fin 4) :
    val_main_v17 (F := Ideal) x0 x3 x4 (ix3 b t d) = Cert.Spec.top (Cert.Spec.logits (fun h => x0 (ix3 b t h)) (fun d h => x3 (ix2 d h)) (fun d => x4 (ix1 d))) := by
  rw [val_main_v17_apply, val_main_v16_apply]
  have e : idx_main_v16 (idx_main_v17 (ix3 b t d)) = ix2 b t := funext fun a => Fin.ext (by
    match a with
    | ⟨0, _⟩ => rfl
    | ⟨1, _⟩ => rfl)
  rw [e, v15_at]

/-- The shifted exponential of level d at (b, t). -/
theorem v19_at (b : Fin 4) (t : Fin 4096) (d : Fin 4) :
    val_main_v19 (F := Ideal) x0 x3 x4 (ix3 b t d) = Cert.Spec.ex (Cert.Spec.logits (fun h => x0 (ix3 b t h)) (fun d h => x3 (ix2 d h)) (fun d => x4 (ix1 d))) d := by
  rw [val_main_v19_apply, val_main_v18_apply, v12_at, v17_at]
  rfl

/-- The sum of the four shifted exponentials at (b, t); the sum starts from the zero word. -/
theorem v20_at (b : Fin 4) (t : Fin 4096) :
    val_main_v20 (F := Ideal) x0 x3 x4 (ix2 b t) = ∑ e : Fin 4, Cert.Spec.ex (Cert.Spec.logits (fun h => x0 (ix3 b t h)) (fun d h => x3 (ix2 d h)) (fun d => x4 (ix1 d))) e := by
  rw [val_main_v20_apply]
  have e0 : (val_main_cst_3 (F := Ideal)) (Shape.Idx.first Gen.h_S_) = 0 := Ideal.ofBits_zero_f32
  rw [e0, zero_add]
  refine Finset.sum_congr rfl fun k _ => ?_
  have e : idx_main_v20 (ix2 b t) k = ix3 b t k := funext fun a => Fin.ext (by
    match a with
    | ⟨0, _⟩ => rfl
    | ⟨1, _⟩ => rfl
    | ⟨2, _⟩ => rfl)
  rw [e, v19_at]

/-- That sum spread back over the level axis. -/
theorem v22_at (b : Fin 4) (t : Fin 4096) (d : Fin 4) :
    val_main_v22 (F := Ideal) x0 x3 x4 (ix3 b t d) = ∑ e : Fin 4, Cert.Spec.ex (Cert.Spec.logits (fun h => x0 (ix3 b t h)) (fun d h => x3 (ix2 d h)) (fun d => x4 (ix1 d))) e := by
  rw [val_main_v22_apply, val_main_v21_apply]
  have e : idx_main_v21 (idx_main_v22 (ix3 b t d)) = ix2 b t := funext fun a => Fin.ext (by
    match a with
    | ⟨0, _⟩ => rfl
    | ⟨1, _⟩ => rfl)
  rw [e, v20_at]

/-- The weight of level d at (b, t): its shifted exponential over the sum of the four. -/
theorem v23_at (b : Fin 4) (t : Fin 4096) (d : Fin 4) :
    val_main_v23 (F := Ideal) x0 x3 x4 (ix3 b t d) = Cert.Spec.weight (Cert.Spec.logits (fun h => x0 (ix3 b t h)) (fun d h => x3 (ix2 d h)) (fun d => x4 (ix1 d))) d := by
  rw [val_main_v23_apply, v19_at, v22_at]
  rfl

/-- The sum of the four level weights at (b, t); the sum starts from the zero word. -/
theorem v32_at (b : Fin 4) (t : Fin 4096) :
    val_main_v32 (F := Ideal) x0 x3 x4 (ix2 b t) = ∑ d : Fin 4, Cert.Spec.weight (Cert.Spec.logits (fun h => x0 (ix3 b t h)) (fun d h => x3 (ix2 d h)) (fun d => x4 (ix1 d))) d := by
  rw [val_main_v32_apply]
  have e0 : (val_main_cst_4 (F := Ideal)) (Shape.Idx.first Gen.h_S_) = 0 := Ideal.ofBits_zero_f32
  rw [e0, zero_add]
  refine Finset.sum_congr rfl fun k _ => ?_
  have e : idx_main_v32 (ix2 b t) k = ix3 b t k := funext fun a => Fin.ext (by
    match a with
    | ⟨0, _⟩ => rfl
    | ⟨1, _⟩ => rfl
    | ⟨2, _⟩ => rfl)
  rw [e, v23_at]

/-- The sum of the level weights spread over the hidden axis. -/
theorem v34_at (b : Fin 4) (t : Fin 4096) (j : Fin 1024) :
    val_main_v34 (F := Ideal) x0 x3 x4 (ix3 b t j) = ∑ d : Fin 4, Cert.Spec.weight (Cert.Spec.logits (fun h => x0 (ix3 b t h)) (fun d h => x3 (ix2 d h)) (fun d => x4 (ix1 d))) d := by
  rw [val_main_v34_apply, val_main_v33_apply]
  have e : idx_main_v33 (idx_main_v34 (ix3 b t j)) = ix2 b t := funext fun a => Fin.ext (by
    match a with
    | ⟨0, _⟩ => rfl
    | ⟨1, _⟩ => rfl)
  rw [e, v32_at]

/-! ## The decayed state, key times value, the gate -/

/-- The decayed state at (b, d, j): the state entry times e^(-e^decay) of (d, j). -/
theorem v29_at (b : Fin 4) (d : Fin 4) (j : Fin 1024) :
    val_main_v29 (F := Ideal) x1 x2 (ix3 b d j) = Cert.Spec.decayed (x1 (ix3 b d j)) (x2 (ix2 d j)) := by
  rw [val_main_v29_apply, val_main_v28_apply, val_main_v27_apply, val_main_v26_apply, val_main_v25_apply,
    val_main_v24_apply]
  have e : idx_main_v27 (idx_main_v28 (ix3 b d j)) = ix2 d j := funext fun a => Fin.ext (by
    match a with
    | ⟨0, _⟩ => rfl
    | ⟨1, _⟩ => rfl)
  rw [e]
  rfl

/-- Key times value at (b, t, j). -/
theorem v30_at (b : Fin 4) (t : Fin 4096) (j : Fin 1024) :
    val_main_v30 (F := Ideal) x0 x5 x6 (ix3 b t j)
      = Cert.Spec.dot (fun h => x0 (ix3 b t h)) (fun h => x6 (ix2 j h)) * Cert.Spec.dot (fun h => x0 (ix3 b t h)) (fun h => x5 (ix2 j h)) := by
  rw [val_main_v30_apply, v1_at, v0_at]
  rfl

/-- The gate at (b, t, j): 1 / (1 + e^(-z)) of the gate projection, with the word of 1.0 for 1. -/
theorem v8_at (b : Fin 4) (t : Fin 4096) (j : Fin 1024) :
    val_main_v8 (F := Ideal) x0 x7 (ix3 b t j) = Cert.Spec.gate (Cert.Spec.dot (fun h => x0 (ix3 b t h)) (fun h => x7 (ix2 j h))) := by
  rw [val_main_v8_apply, val_main_v7_apply, val_main_v6_apply, val_main_v5_apply, val_main_v4_apply,
    val_main_v3_apply, v2_at]
  rfl

/-! ## The hidden row and the two results -/

/-- The weighted decayed states at (b, t, j): the four level weights against the four decayed state entries. -/
theorem v31_at (b : Fin 4) (t : Fin 4096) (j : Fin 1024) :
    val_main_v31 (F := Ideal) x0 x1 x2 x3 x4 (ix3 b t j)
      = ∑ d : Fin 4, Cert.Spec.weight (Cert.Spec.logits (fun h => x0 (ix3 b t h)) (fun d h => x3 (ix2 d h)) (fun d => x4 (ix1 d))) d * Cert.Spec.decayed (x1 (ix3 b d j)) (x2 (ix2 d j)) := by
  rw [val_main_v31_apply]
  refine Finset.sum_congr rfl fun k _ => ?_
  have el : lidx_main_v31 (ix3 b t j) k = ix3 b t k := funext fun a => Fin.ext (by
    match a with
    | ⟨0, _⟩ => rfl
    | ⟨1, _⟩ => rfl
    | ⟨2, _⟩ => rfl)
  have er : ridx_main_v31 (ix3 b t j) k = ix3 b k j := funext fun a => Fin.ext (by
    match a with
    | ⟨0, _⟩ => rfl
    | ⟨1, _⟩ => rfl
    | ⟨2, _⟩ => rfl)
  rw [el, er, v23_at, v29_at]

/-- The hidden value at (b, t, j). -/
theorem v37_at (b : Fin 4) (t : Fin 4096) (j : Fin 1024) :
    val_main_v37 (F := Ideal) x0 x1 x2 x3 x4 x5 x6 x7 (ix3 b t j)
      = Cert.Spec.hidden (fun h => x0 (ix3 b t h)) (fun o h => x5 (ix2 o h)) (fun o h => x6 (ix2 o h)) (fun o h => x7 (ix2 o h)) (fun d h => x3 (ix2 d h)) (fun d => x4 (ix1 d)) (fun d j => Cert.Spec.decayed (x1 (ix3 b d j)) (x2 (ix2 d j))) j := by
  rw [val_main_v37_apply, v8_at, val_main_v36_apply, v31_at, val_main_v35_apply, v34_at, v30_at]
  rfl

end

/-- The first result at (b, t, c): the hidden row of (b, t) against row c of the output matrix. -/
theorem out_apply (x0 : (⟨S4x4096x1024, .f32⟩ : BufTy).Contents (Elt Ideal)) (x1 : (⟨S4x4x1024, .f32⟩ : BufTy).Contents (Elt Ideal)) (x2 x3 : (⟨S4x1024, .f32⟩ : BufTy).Contents (Elt Ideal)) (x4 : (⟨S4, .f32⟩ : BufTy).Contents (Elt Ideal)) (x5 x6 x7 x8 : (⟨S1024x1024, .f32⟩ : BufTy).Contents (Elt Ideal)) (b : Fin 4) (t : Fin 4096) (c : Fin 1024) :
    val_main_v38 (F := Ideal) x0 x1 x2 x3 x4 x5 x6 x7 x8 (ix3 b t c)
      = Cert.Spec.rowOut (fun h => x0 (ix3 b t h)) (fun o h => x5 (ix2 o h)) (fun o h => x6 (ix2 o h)) (fun o h => x7 (ix2 o h)) (fun o h => x8 (ix2 o h))
          (fun d h => x3 (ix2 d h)) (fun d => x4 (ix1 d)) (fun d j => Cert.Spec.decayed (x1 (ix3 b d j)) (x2 (ix2 d j))) c := by
  rw [val_main_v38_apply]
  unfold Cert.Spec.rowOut
  refine Finset.sum_congr rfl fun k _ => ?_
  have el : lidx_main_v38 (ix3 b t c) k = ix3 b t k := funext fun a => Fin.ext (by
    match a with
    | ⟨0, _⟩ => rfl
    | ⟨1, _⟩ => rfl
    | ⟨2, _⟩ => rfl)
  have er : ridx_main_v38 (ix3 b t c) k = ix2 c k := funext fun a => Fin.ext (by
    match a with
    | ⟨0, _⟩ => rfl
    | ⟨1, _⟩ => rfl)
  rw [el, er, v37_at]

/-- The second result at (b, d, j): the decayed state entry plus key times value of the last row (t = 4095). -/
theorem state_apply (x0 : (⟨S4x4096x1024, .f32⟩ : BufTy).Contents (Elt Ideal)) (x1 : (⟨S4x4x1024, .f32⟩ : BufTy).Contents (Elt Ideal)) (x2 : (⟨S4x1024, .f32⟩ : BufTy).Contents (Elt Ideal)) (x5 x6 : (⟨S1024x1024, .f32⟩ : BufTy).Contents (Elt Ideal)) (b : Fin 4) (d : Fin 4) (j : Fin 1024) :
    val_main_v43 (F := Ideal) x0 x1 x2 x5 x6 (ix3 b d j)
      = Cert.Spec.rowState (fun h => x0 (ix3 b (4095 : Fin 4096) h)) (fun o h => x5 (ix2 o h)) (fun o h => x6 (ix2 o h)) (x1 (ix3 b d j)) (x2 (ix2 d j)) j := by
  rw [val_main_v43_apply, v29_at, val_main_v42_apply, val_main_v41_apply, val_main_v40_apply, val_main_v39_apply]
  have hb : b.val < 4 := b.isLt
  have hj : j.val < 1024 := j.isLt
  have e : idx_main_v39 (idx_main_v40 (idx_main_v41 (idx_main_v42 (ix3 b d j)))) = ix3 b (4095 : Fin 4096) j :=
    funext fun a => Fin.ext (by
      match a with
      | ⟨0, _⟩ => show (b.val * 1024 + j.val) / 1024 = b.val; omega
      | ⟨1, _⟩ => rfl
      | ⟨2, _⟩ => show (b.val * 1024 + j.val) % 1024 = j.val; omega)
  rw [e, v30_at]
  rfl

end Cert.RefValue

end
-- ==== Proof.lean ====
/-
  The certificate: a mixing layer over a 4 x 4096 x 1024 input, as one grid region against its plain statement.

  Each row of the input is projected onto values, keys, gate logits and four level logits; the level logits (plus a bias)
  become softmax weights; the hidden row is gate * (weights · decayed state + (sum of weights) * key * value); the
  output is the hidden row against the output matrix; and the new state is the decayed state plus key * value of each
  batch's last row.  The region computes the output 512 rows at a time with the three large projections fused into one
  matrix product against the matrices laid side by side; the plain statement computes every stage on whole arrays.

  On the extended reals the two agree entry by entry with no rearrangement: the fused product's column groups are the
  separate projections, a product after narrowing to a short format is the same product, the logistic gate is
  1 / (1 + e^(-z)), and both sides spell the softmax, the combination and every sum in the same order.  So no law that
  could fail at an infinity is used and the finiteness of the inputs is never opened.

  The three frames: the region's run for the printed program and for its idealization (the same text read at any float
  interpretation), and the plain statement's run.  The idealization rewrote nothing, so there is nothing to preserve.
-/
import proofs.«118696_j37864431681706_2_alg».proof.Defs
import proofs.«118696_j37864431681706_2_alg».proof.Proof.Gen.Kernel
import proofs.«118696_j37864431681706_2_alg».proof.Proof.Gen.KernelIdeal
import proofs.«118696_j37864431681706_2_alg».proof.Proof.Gen.ReferenceIdeal
import proofs.«118696_j37864431681706_2_alg».proof.Proof.Gen.Pre_finite_inputs
import proofs.«118696_j37864431681706_2_alg».proof.Proof.Gen.ReferenceIdeal.Run
import proofs.«118696_j37864431681706_2_alg».proof.Proof.Gen.ReferenceIdeal.Read
import proofs.«118696_j37864431681706_2_alg».proof.Proof.RunBits
import proofs.«118696_j37864431681706_2_alg».proof.Proof.RunIdeal
import proofs.«118696_j37864431681706_2_alg».proof.Proof.Result
import proofs.«118696_j37864431681706_2_alg».proof.Proof.RefValue
import proofs.«118696_j37864431681706_2_alg».proof.Proof.Whole
import Idealize.ShloMosaic.Adequacy
import Idealize.ShloMosaic.Init

set_option maxRecDepth 16384

noncomputable section

namespace Cert.Proof

open Idealize.ShloMosaic Idealize.ShloMosaic.ValueIdx Idealize.SL.Sem

/-- The plain statement's output array is the layer's function of its arguments. -/
theorem ref_out (x0 : (⟨3, ![4, 4096, 1024]⟩ : Shape).Idx → EReal) (x1 : (⟨3, ![4, 4, 1024]⟩ : Shape).Idx → EReal)
    (x2 x3 : (⟨2, ![4, 1024]⟩ : Shape).Idx → EReal) (x4 : (⟨1, ![4]⟩ : Shape).Idx → EReal)
    (x5 x6 x7 x8 : (⟨2, ![1024, 1024]⟩ : Shape).Idx → EReal) :
    Cert.ReferenceIdeal.Read.val_main_v38 (F := Ideal) x0 x1 x2 x3 x4 x5 x6 x7 x8 = Cert.Whole.out x0 x1 x2 x3 x4 x5 x6 x7 x8 := by
  funext i
  obtain ⟨b, t, c, rfl⟩ : ∃ (b : Fin 4) (t : Fin 4096) (c : Fin 1024), i = ix3 b t c := ⟨i 0, i 1, i 2, eq_ix3 i⟩
  exact Cert.RefValue.out_apply x0 x1 x2 x3 x4 x5 x6 x7 x8 b t c

/-- The plain statement's new state is the closing lines' function of its arguments. -/
theorem ref_state (x0 : (⟨3, ![4, 4096, 1024]⟩ : Shape).Idx → EReal) (x1 : (⟨3, ![4, 4, 1024]⟩ : Shape).Idx → EReal)
    (x2 : (⟨2, ![4, 1024]⟩ : Shape).Idx → EReal) (x5 x6 : (⟨2, ![1024, 1024]⟩ : Shape).Idx → EReal) :
    Cert.ReferenceIdeal.Read.val_main_v43 (F := Ideal) x0 x1 x2 x5 x6 = Cert.Whole.newState x0 x1 x2 x5 x6 := by
  funext i
  obtain ⟨b, d, j, rfl⟩ : ∃ (b d : Fin 4) (j : Fin 1024), i = ix3 b d j := ⟨i 0, i 1, i 2, eq_ix3 i⟩
  exact Cert.RefValue.state_apply x0 x1 x2 x5 x6 b d j

theorem frame_kernel : Cert.frame_Kernel (hKernel := Cert.Kernel.Gen.facts) (hPre_finite_inputs := Cert.Pre_finite_inputs.Gen.facts) :=
  fun m ρ _ => Cert.Kernel.Run.frame m ρ

theorem frame_ideal : Cert.frame_KernelIdeal (hKernelIdeal := Cert.KernelIdeal.Gen.facts) (hPre_finite_inputs := Cert.Pre_finite_inputs.Gen.facts) :=
  fun m ρ _ => Cert.KernelIdeal.Run.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both idealized programs, from memories agreeing on the arguments, end with the same two result arrays: each side's run
    states its results as the same functions of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8⟩ := hagree c
    rw [Cert.ReferenceIdeal.Read.val_main_v38_eq, ref_out, a0, a1, a2, a3, a4, a5, a6, a7, a8]
  · obtain ⟨a0, a1, a2, a3, a4, a5, a6, a7, a8⟩ := hagree c
    rw [Cert.ReferenceIdeal.Read.val_main_v43_eq, ref_state, a0, a1, a2, a5, a6]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
